-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S2x100000 : Shape := ⟨2, ![2, 100000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : IVec S2x100000 32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg3
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg5
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg6 main_v13 main_v16
-- ==== Kernel.lean ====
abbrev S100000x512 : Shape := ⟨2, ![100000, 512]⟩
abbrev S2x3200000 : Shape := ⟨2, ![2, 3200000]⟩
abbrev S2x100000 : Shape := ⟨2, ![2, 100000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S1x100000 : Shape := ⟨2, ![1, 100000]⟩
abbrev S100000 : Shape := ⟨1, ![100000]⟩
abbrev S3300000 : Shape := ⟨1, ![3300000]⟩
abbrev S100000x16 : Shape := ⟨2, ![100000, 16]⟩
abbrev S5000x512 : Shape := ⟨2, ![5000, 512]⟩
abbrev S5000x16 : Shape := ⟨2, ![5000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩

abbrev nBuf : Space → Nat
  | .hbm => 234
  | .vmem => 10
  | .smem => 0
  | _ => 0

abbrev hbmTy0_0 (i : Nat) : BufTy := match i % 128 with
  | 0 => ⟨S100000x512, .f32⟩
  | 1 => ⟨S2x3200000, .i32⟩
  | 2 => ⟨S2x100000, .i32⟩
  | 3 => ⟨S512x16, .f32⟩
  | 4 => ⟨S16, .f32⟩
  | 5 => ⟨S16x40, .f32⟩
  | 6 => ⟨S40, .f32⟩
  | 7 => ⟨S1x3200000, .i32⟩
  | 8 => ⟨S3200000, .i32⟩
  | 9 => ⟨S1x3200000, .i32⟩
  | 10 => ⟨S3200000, .i32⟩
  | 11 => ⟨S1x100000, .i32⟩
  | 12 => ⟨S100000, .i32⟩
  | 13 => ⟨S1x100000, .i32⟩
  | 14 => ⟨S100000, .i32⟩
  | 15 => ⟨S100000, .i32⟩
  | 16 => ⟨S3300000, .i32⟩
  | 17 => ⟨S3300000, .i32⟩
  | 18 => ⟨S100000x16, .f32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x16, .f32⟩
  | 62 => ⟨S3300000x16, .f32⟩
  | 63 => ⟨S3300000x16, .f32⟩
  | 64 => ⟨S_, .f32⟩
  | 65 => ⟨S100000x16, .f32⟩
  | 66 => ⟨S3300000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000, .f32⟩
  | 73 => ⟨S_, .f32⟩
  | 74 => ⟨S100000, .f32⟩
  | 75 => ⟨S100000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000, .f32⟩
  | 103 => ⟨S100000, .f32⟩
  | 104 => ⟨S100000x1, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x16, .f32⟩
  | 114 => ⟨S100000x16, .f32⟩
  | 115 => ⟨S100000x16, .f32⟩
  | 116 => ⟨S100000x16, .f32⟩
  | 117 => ⟨S_, .f32⟩
  | 118 => ⟨S100000x16, .f32⟩
  | 119 => ⟨S100000x16, .f32⟩
  | 120 => ⟨S100000x40, .f32⟩
  | 121 => ⟨S_, .f32⟩
  | 122 => ⟨S3300000, .f32⟩
  | 123 => ⟨S_, .f32⟩
  | 124 => ⟨S100000, .f32⟩
  | 125 => ⟨S3300000x1, .i32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .i1⟩
  | 2 => ⟨S100000, .f32⟩
  | 3 => ⟨S_, .f32⟩
  | 4 => ⟨S_, .f32⟩
  | 5 => ⟨S100000, .f32⟩
  | 6 => ⟨S100000, .f32⟩
  | 7 => ⟨S_, .i32⟩
  | 8 => ⟨S3300000, .i32⟩
  | 9 => ⟨S3300000, .i1⟩
  | 10 => ⟨S_, .i32⟩
  | 11 => ⟨S3300000, .i32⟩
  | 12 => ⟨S3300000, .i32⟩
  | 13 => ⟨S3300000, .i32⟩
  | 14 => ⟨S3300000x1, .i32⟩
  | 15 => ⟨S3300000, .f32⟩
  | 16 => ⟨S_, .i32⟩
  | 17 => ⟨S3300000, .i32⟩
  | 18 => ⟨S3300000, .i1⟩
  | 19 => ⟨S_, .i32⟩
  | 20 => ⟨S3300000, .i32⟩
  | 21 => ⟨S3300000, .i32⟩
  | 22 => ⟨S3300000, .i32⟩
  | 23 => ⟨S3300000x1, .i32⟩
  | 24 => ⟨S3300000, .f32⟩
  | 25 => ⟨S3300000, .f32⟩
  | 26 => ⟨S3300000x1, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000x40, .f32⟩
  | 36 => ⟨S3300000x40, .f32⟩
  | 37 => ⟨S3300000x40, .f32⟩
  | 38 => ⟨S_, .f32⟩
  | 39 => ⟨S100000x40, .f32⟩
  | 40 => ⟨S3300000x1, .i32⟩
  | 41 => ⟨S100000x40, .f32⟩
  | 42 => ⟨S1x40, .f32⟩
  | 43 => ⟨S100000x40, .f32⟩
  | 44 => ⟨S100000x40, .f32⟩
  | 45 => ⟨S_, .f32⟩
  | 46 => ⟨S100000, .f32⟩
  | 47 => ⟨S_, .f32⟩
  | 48 => ⟨S100000, .f32⟩
  | 49 => ⟨S100000x1, .i32⟩
  | 50 => ⟨S100000, .f32⟩
  | 51 => ⟨S_, .f32⟩
  | 52 => ⟨S100000, .f32⟩
  | 53 => ⟨S100000, .i1⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000, .f32⟩
  | 77 => ⟨S100000, .f32⟩
  | 78 => ⟨S100000x1, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x40, .f32⟩
  | 88 => ⟨S100000x40, .f32⟩
  | 89 => ⟨S100000x40, .f32⟩
  | 90 => ⟨S100000x40, .f32⟩
  | 91 => ⟨S_, .f32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x40, .f32⟩
  | 98 => ⟨S100000x40, .f32⟩
  | 99 => ⟨S100000x40, .f32⟩
  | 100 => ⟨S_, .f32⟩
  | 101 => ⟨S100000, .f32⟩
  | 102 => ⟨S100000x1, .f32⟩
  | 103 => ⟨S100000x1, .f32⟩
  | 104 => ⟨S100000x40, .f32⟩
  | 105 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x40, .f32⟩
  | .local _ .vmem, ⟨8, _⟩ => ⟨S5000x40, .f32⟩
  | .local _ .vmem, ⟨9, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call2_cst : Ref sig .tc := ⟨.hbm, 117, rfl⟩
abbrev main_call2_v0 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_cst_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_call3_v0 : Ref sig .tc := ⟨.hbm, 132, rfl⟩
abbrev main_call3_v1 : Ref sig .tc := ⟨.hbm, 133, rfl⟩
abbrev main_v94 : Ref sig .tc := ⟨.hbm, 134, rfl⟩
abbrev main_c_23 : Ref sig .tc := ⟨.hbm, 135, rfl⟩
abbrev main_v95 : Ref sig .tc := ⟨.hbm, 136, rfl⟩
abbrev main_v96 : Ref sig .tc := ⟨.hbm, 137, rfl⟩
abbrev main_c_24 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_25 : Ref sig .tc := ⟨.hbm, 144, rfl⟩
abbrev main_v102 : Ref sig .tc := ⟨.hbm, 145, rfl⟩
abbrev main_v103 : Ref sig .tc := ⟨.hbm, 146, rfl⟩
abbrev main_c_26 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_27 : Ref sig .tc := ⟨.hbm, 155, rfl⟩
abbrev main_v111 : Ref sig .tc := ⟨.hbm, 156, rfl⟩
abbrev main_v112 : Ref sig .tc := ⟨.hbm, 157, rfl⟩
abbrev main_c_28 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_29 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_30 : Ref sig .tc := ⟨.hbm, 173, rfl⟩
abbrev main_v126 : Ref sig .tc := ⟨.hbm, 174, rfl⟩
abbrev main_cst_31 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_32 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_33 : Ref sig .tc := ⟨.hbm, 183, rfl⟩
abbrev main_call4_v0 : Ref sig .tc := ⟨.hbm, 184, rfl⟩
abbrev main_call4_v1 : Ref sig .tc := ⟨.hbm, 185, rfl⟩
abbrev main_v133 : Ref sig .tc := ⟨.hbm, 186, rfl⟩
abbrev main_c_34 : Ref sig .tc := ⟨.hbm, 187, rfl⟩
abbrev main_v134 : Ref sig .tc := ⟨.hbm, 188, rfl⟩
abbrev main_v135 : Ref sig .tc := ⟨.hbm, 189, rfl⟩
abbrev main_c_35 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_36 : Ref sig .tc := ⟨.hbm, 196, rfl⟩
abbrev main_v141 : Ref sig .tc := ⟨.hbm, 197, rfl⟩
abbrev main_v142 : Ref sig .tc := ⟨.hbm, 198, rfl⟩
abbrev main_c_37 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_38 : Ref sig .tc := ⟨.hbm, 207, rfl⟩
abbrev main_v150 : Ref sig .tc := ⟨.hbm, 208, rfl⟩
abbrev main_v151 : Ref sig .tc := ⟨.hbm, 209, rfl⟩
abbrev main_c_39 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_call5_cst : Ref sig .tc := ⟨.hbm, 219, rfl⟩
abbrev main_call5_v0 : Ref sig .tc := ⟨.hbm, 220, rfl⟩
abbrev main_call5_cst_0 : Ref sig .tc := ⟨.hbm, 221, rfl⟩
abbrev main_call5_v1 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_call5_v5 : Ref sig .tc := ⟨.hbm, 226, rfl⟩
abbrev main_call5_v6 : Ref sig .tc := ⟨.hbm, 227, rfl⟩
abbrev main_call5_cst_1 : Ref sig .tc := ⟨.hbm, 228, rfl⟩
abbrev main_call5_v7 : Ref sig .tc := ⟨.hbm, 229, rfl⟩
abbrev main_call5_v8 : Ref sig .tc := ⟨.hbm, 230, rfl⟩
abbrev main_call5_v9 : Ref sig .tc := ⟨.hbm, 231, rfl⟩
abbrev main_call5_v10 : Ref sig .tc := ⟨.hbm, 232, rfl⟩
abbrev main_v160 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x100000_S1x100000_0_0 : S2x100000.Slices ![0, 0] S1x100000
  shapeCasts_S1x100000_S100000 : S1x100000.ShapeCasts S100000
  slices_S2x100000_S1x100000_1_0 : S2x100000.Slices ![1, 0] S1x100000
  concatenates_S3200000_S100000_S3300000_d0 : Shape.Concatenates [S3200000, S100000] S3300000 0
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S100000x1_S100000x40_0_1 : S100000x1.BroadcastsInDim S100000x40 (![0, 1] : Fin 2 → Fin S100000x40.rank)
  reducesTo_S100000x40_S100000_d1 : S100000x40.ReducesTo [1] S100000
  h_S_ : 0 < S_.numel
  dot_S5000x512_S512x16_S5000x16_1_0_0_1_n_n_wf : DotDims.WF S5000x512 S512x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S100000_S100000x1_S100000_n_0_0_1_wf : ScatterDims.WF S100000 S100000x1 S100000 [] [0] [0] 1
  gather_S100000_S100000x1_S100000_n_0_n_n_0_1_1_wf : GatherDims.WF S100000 S100000x1 S100000 [] [0] [] [0] [] 1 ![1]
  gather_S100000x16_S100000x1_S100000x16_1_0_n_n_0_1_116_wf : GatherDims.WF S100000x16 S100000x1 S100000x16 [1] [0] [] [0] [] 1 ![1, 16]
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  gather_S100000x40_S100000x1_S100000x40_1_0_n_n_0_1_140_wf : GatherDims.WF S100000x40 S100000x1 S100000x40 [1] [0] [] [0] [] 1 ![1, 40]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x16_S100000x1_S100000x16_1_0_n_n_0_1_116 : GatherDims S100000x16 S100000x1 S100000x16 where
  offsetDims := [1]
  collapsedSliceDims := [0]
  operandBatchingDims := []
  startIndicesBatchingDims := []
  startIndexMap := [0]
  indexVectorDim := 1
  sliceSizes := ![1, 16]
  wf := gather_S100000x16_S100000x1_S100000x16_1_0_n_n_0_1_116_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def gather_S100000x40_S100000x1_S100000x40_1_0_n_n_0_1_140 : GatherDims S100000x40 S100000x1 S100000x40 where
  offsetDims := [1]
  collapsedSliceDims := [0]
  operandBatchingDims := []
  startIndicesBatchingDims := []
  startIndexMap := [0]
  indexVectorDim := 1
  sliceSizes := ![1, 40]
  wf := gather_S100000x40_S100000x1_S100000x40_1_0_n_n_0_1_140_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v85) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S2x100000 : Shape := ⟨2, ![2, 100000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S1x100000 : Shape := ⟨2, ![1, 100000]⟩
abbrev S100000 : Shape := ⟨1, ![100000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 237
  | .vmem => 0
  | .smem => 0
  | _ => 0

abbrev hbmTy0_0 (i : Nat) : BufTy := match i % 128 with
  | 0 => ⟨S100000x512, .f32⟩
  | 1 => ⟨S2x3200000, .i32⟩
  | 2 => ⟨S2x100000, .i32⟩
  | 3 => ⟨S512x16, .f32⟩
  | 4 => ⟨S16, .f32⟩
  | 5 => ⟨S16x40, .f32⟩
  | 6 => ⟨S40, .f32⟩
  | 7 => ⟨S1x3200000, .i32⟩
  | 8 => ⟨S3200000, .i32⟩
  | 9 => ⟨S1x3200000, .i32⟩
  | 10 => ⟨S3200000, .i32⟩
  | 11 => ⟨S1x100000, .i32⟩
  | 12 => ⟨S100000, .i32⟩
  | 13 => ⟨S1x100000, .i32⟩
  | 14 => ⟨S100000, .i32⟩
  | 15 => ⟨S100000, .i32⟩
  | 16 => ⟨S3300000, .i32⟩
  | 17 => ⟨S3300000, .i32⟩
  | 18 => ⟨S100000x16, .f32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x16, .f32⟩
  | 62 => ⟨S3300000x16, .f32⟩
  | 63 => ⟨S3300000x16, .f32⟩
  | 64 => ⟨S_, .f32⟩
  | 65 => ⟨S100000x16, .f32⟩
  | 66 => ⟨S3300000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000, .f32⟩
  | 73 => ⟨S_, .f32⟩
  | 74 => ⟨S100000, .f32⟩
  | 75 => ⟨S100000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000, .f32⟩
  | 103 => ⟨S100000, .f32⟩
  | 104 => ⟨S100000x1, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x16, .f32⟩
  | 114 => ⟨S100000x16, .f32⟩
  | 115 => ⟨S100000x16, .f32⟩
  | 116 => ⟨S100000x16, .f32⟩
  | 117 => ⟨S_, .f32⟩
  | 118 => ⟨S100000x16, .f32⟩
  | 119 => ⟨S100000x16, .f32⟩
  | 120 => ⟨S100000, .i32⟩
  | 121 => ⟨S3300000, .i32⟩
  | 122 => ⟨S3300000, .i32⟩
  | 123 => ⟨S100000x40, .f32⟩
  | 124 => ⟨S_, .f32⟩
  | 125 => ⟨S3300000, .f32⟩
  | 126 => ⟨S_, .f32⟩
  | 127 => ⟨S100000, .f32⟩
  | _ => ⟨S100000x512, .f32⟩

abbrev hbmTy0_1 (i : Nat) : BufTy := match i % 128 with
  | 0 => ⟨S3300000x1, .i32⟩
  | 1 => ⟨S100000, .f32⟩
  | 2 => ⟨S_, .f32⟩
  | 3 => ⟨S100000, .f32⟩
  | 4 => ⟨S100000, .i1⟩
  | 5 => ⟨S100000, .f32⟩
  | 6 => ⟨S_, .f32⟩
  | 7 => ⟨S_, .f32⟩
  | 8 => ⟨S100000, .f32⟩
  | 9 => ⟨S100000, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S3300000, .f32⟩
  | 19 => ⟨S_, .i32⟩
  | 20 => ⟨S3300000, .i32⟩
  | 21 => ⟨S3300000, .i1⟩
  | 22 => ⟨S_, .i32⟩
  | 23 => ⟨S3300000, .i32⟩
  | 24 => ⟨S3300000, .i32⟩
  | 25 => ⟨S3300000, .i32⟩
  | 26 => ⟨S3300000x1, .i32⟩
  | 27 => ⟨S3300000, .f32⟩
  | 28 => ⟨S3300000, .f32⟩
  | 29 => ⟨S3300000x1, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000x40, .f32⟩
  | 39 => ⟨S3300000x40, .f32⟩
  | 40 => ⟨S3300000x40, .f32⟩
  | 41 => ⟨S_, .f32⟩
  | 42 => ⟨S100000x40, .f32⟩
  | 43 => ⟨S3300000x1, .i32⟩
  | 44 => ⟨S100000x40, .f32⟩
  | 45 => ⟨S1x40, .f32⟩
  | 46 => ⟨S100000x40, .f32⟩
  | 47 => ⟨S100000x40, .f32⟩
  | 48 => ⟨S_, .f32⟩
  | 49 => ⟨S100000, .f32⟩
  | 50 => ⟨S_, .f32⟩
  | 51 => ⟨S100000, .f32⟩
  | 52 => ⟨S100000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000, .f32⟩
  | 80 => ⟨S100000, .f32⟩
  | 81 => ⟨S100000x1, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x40, .f32⟩
  | 91 => ⟨S100000x40, .f32⟩
  | 92 => ⟨S100000x40, .f32⟩
  | 93 => ⟨S100000x40, .f32⟩
  | 94 => ⟨S_, .f32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x40, .f32⟩
  | 101 => ⟨S100000x40, .f32⟩
  | 102 => ⟨S100000x40, .f32⟩
  | 103 => ⟨S_, .f32⟩
  | 104 => ⟨S100000, .f32⟩
  | 105 => ⟨S100000x1, .f32⟩
  | 106 => ⟨S100000x1, .f32⟩
  | 107 => ⟨S100000x40, .f32⟩
  | 108 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_c_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_c_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call2_cst : Ref sig .tc := ⟨.hbm, 117, rfl⟩
abbrev main_call2_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_call3_v0 : Ref sig .tc := ⟨.hbm, 135, rfl⟩
abbrev main_call3_v1 : Ref sig .tc := ⟨.hbm, 136, rfl⟩
abbrev main_v97 : Ref sig .tc := ⟨.hbm, 137, rfl⟩
abbrev main_c_23 : Ref sig .tc := ⟨.hbm, 138, rfl⟩
abbrev main_v98 : Ref sig .tc := ⟨.hbm, 139, rfl⟩
abbrev main_v99 : Ref sig .tc := ⟨.hbm, 140, rfl⟩
abbrev main_c_24 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_25 : Ref sig .tc := ⟨.hbm, 147, rfl⟩
abbrev main_v105 : Ref sig .tc := ⟨.hbm, 148, rfl⟩
abbrev main_v106 : Ref sig .tc := ⟨.hbm, 149, rfl⟩
abbrev main_c_26 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_27 : Ref sig .tc := ⟨.hbm, 158, rfl⟩
abbrev main_v114 : Ref sig .tc := ⟨.hbm, 159, rfl⟩
abbrev main_v115 : Ref sig .tc := ⟨.hbm, 160, rfl⟩
abbrev main_c_28 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_29 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_30 : Ref sig .tc := ⟨.hbm, 176, rfl⟩
abbrev main_v129 : Ref sig .tc := ⟨.hbm, 177, rfl⟩
abbrev main_cst_31 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_32 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_33 : Ref sig .tc := ⟨.hbm, 186, rfl⟩
abbrev main_call4_v0 : Ref sig .tc := ⟨.hbm, 187, rfl⟩
abbrev main_call4_v1 : Ref sig .tc := ⟨.hbm, 188, rfl⟩
abbrev main_v136 : Ref sig .tc := ⟨.hbm, 189, rfl⟩
abbrev main_c_34 : Ref sig .tc := ⟨.hbm, 190, rfl⟩
abbrev main_v137 : Ref sig .tc := ⟨.hbm, 191, rfl⟩
abbrev main_v138 : Ref sig .tc := ⟨.hbm, 192, rfl⟩
abbrev main_c_35 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_36 : Ref sig .tc := ⟨.hbm, 199, rfl⟩
abbrev main_v144 : Ref sig .tc := ⟨.hbm, 200, rfl⟩
abbrev main_v145 : Ref sig .tc := ⟨.hbm, 201, rfl⟩
abbrev main_c_37 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_c_38 : Ref sig .tc := ⟨.hbm, 210, rfl⟩
abbrev main_v153 : Ref sig .tc := ⟨.hbm, 211, rfl⟩
abbrev main_v154 : Ref sig .tc := ⟨.hbm, 212, rfl⟩
abbrev main_c_39 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_call5_cst : Ref sig .tc := ⟨.hbm, 222, rfl⟩
abbrev main_call5_v0 : Ref sig .tc := ⟨.hbm, 223, rfl⟩
abbrev main_call5_cst_0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_call5_v5 : Ref sig .tc := ⟨.hbm, 229, rfl⟩
abbrev main_call5_v6 : Ref sig .tc := ⟨.hbm, 230, rfl⟩
abbrev main_call5_cst_1 : Ref sig .tc := ⟨.hbm, 231, rfl⟩
abbrev main_call5_v7 : Ref sig .tc := ⟨.hbm, 232, rfl⟩
abbrev main_call5_v8 : Ref sig .tc := ⟨.hbm, 233, rfl⟩
abbrev main_call5_v9 : Ref sig .tc := ⟨.hbm, 234, rfl⟩
abbrev main_call5_v10 : Ref sig .tc := ⟨.hbm, 235, rfl⟩
abbrev main_v163 : Ref sig .tc := ⟨.hbm, 236, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S2x100000_S1x100000_0_0 : S2x100000.Slices ![0, 0] S1x100000
  shapeCasts_S1x100000_S100000 : S1x100000.ShapeCasts S100000
  slices_S2x100000_S1x100000_1_0 : S2x100000.Slices ![1, 0] S1x100000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S100000x1_S100000x40_0_1 : S100000x1.BroadcastsInDim S100000x40 (![0, 1] : Fin 2 → Fin S100000x40.rank)
  reducesTo_S100000x40_S100000_d1 : S100000x40.ReducesTo [1] S100000
  h_S_ : 0 < S_.numel
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  scatter_S100000_S100000x1_S100000_n_0_0_1_wf : ScatterDims.WF S100000 S100000x1 S100000 [] [0] [0] 1
  gather_S100000_S100000x1_S100000_n_0_n_n_0_1_1_wf : GatherDims.WF S100000 S100000x1 S100000 [] [0] [] [0] [] 1 ![1]
  gather_S100000x16_S100000x1_S100000x16_1_0_n_n_0_1_116_wf : GatherDims.WF S100000x16 S100000x1 S100000x16 [1] [0] [] [0] [] 1 ![1, 16]
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  gather_S100000x40_S100000x1_S100000x40_1_0_n_n_0_1_140_wf : GatherDims.WF S100000x40 S100000x1 S100000x40 [1] [0] [] [0] [] 1 ![1, 40]

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def gather_S100000x16_S100000x1_S100000x16_1_0_n_n_0_1_116 : GatherDims S100000x16 S100000x1 S100000x16 where
  offsetDims := [1]
  collapsedSliceDims := [0]
  operandBatchingDims := []
  startIndicesBatchingDims := []
  startIndexMap := [0]
  indexVectorDim := 1
  sliceSizes := ![1, 16]
  wf := gather_S100000x16_S100000x1_S100000x16_1_0_n_n_0_1_116_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf
def gather_S100000x40_S100000x1_S100000x40_1_0_n_n_0_1_140 : GatherDims S100000x40 S100000x1 S100000x40 where
  offsetDims := [1]
  collapsedSliceDims := [0]
  operandBatchingDims := []
  startIndicesBatchingDims := []
  startIndexMap := [0]
  indexVectorDim := 1
  sliceSizes := ![1, 40]
  wf := gather_S100000x40_S100000x1_S100000x40_1_0_n_n_0_1_140_wf

class Facts : Prop extends Facts₀ where

variable [Facts]
-- ==== Proof.KernelRun.lean ====
/-
  The idealized kernel program's run with its RESULT named. @main is fifteen segments: host operations building the
  edge lists with self-loops, the first product x·W1 as a pipelined region over twenty row blocks, the first
  aggregation / repulsion / clamp as host operations, the second product h·W2 as a region, the second aggregation /
  repulsion and the row-wise log-softmax. Every weakly fair execution terminates with nothing faulting; the result
  buffer ends at the fold of the segments over the launch memory, read at that buffer (`resultAt`), and the seven
  argument arrays end as launched.
-/
import proofs.«128676_j69733089018296_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result buffer holds when @main returns: the last boundary's contents at that buffer. -/
abbrev resultAt (c : Dev nD) : Buf (Elt F) ((c.tc : Thread nD τ).loc main_v160) :=
  W15 m ρ c (Proc.devRef .tc main_v160)

set_option backward.isDefEq.respectTransparency.types false in
/-- The run: termination, no fault, the result at `resultAt`, the arguments as launched. The launch over the
    segments is the one of the frame; the final state is read at the result buffer as well as at the arguments. -/
theorem run : θ_run defs (onTc (τ := τ) (main (F := F))) ⟨m, fun _ => 0, ρ⟩ (fun r => ∀ c : Dev nD,
      r.2.mem ((c.tc : Thread nD τ).loc main_v160) = resultAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v160 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c)⟩)

end Cert.KernelIdeal.Run

end
-- ==== Proof.RefArgs.lean ====
/-
  No operation of the reference writes an argument array: after the whole list each argument's buffer holds what it
  held before.
-/
import proofs.«128676_j69733089018296_1_alg».proof.Proof.RefOps

set_option maxRecDepth 16384

noncomputable section

namespace Cert.ReferenceIdeal.Args

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 8000000

theorem kept_arg0 (V : Valuation τ sig (Elt F)) :
    StableHlo.after ops V (Proc.devRef .tc main_arg0) = V (Proc.devRef .tc main_arg0) := by
  after_results_simp

theorem kept_arg1 (V : Valuation τ sig (Elt F)) :
    StableHlo.after ops V (Proc.devRef .tc main_arg1) = V (Proc.devRef .tc main_arg1) := by
  after_results_simp

theorem kept_arg2 (V : Valuation τ sig (Elt F)) :
    StableHlo.after ops V (Proc.devRef .tc main_arg2) = V (Proc.devRef .tc main_arg2) := by
  after_results_simp

theorem kept_arg3 (V : Valuation τ sig (Elt F)) :
    StableHlo.after ops V (Proc.devRef .tc main_arg3) = V (Proc.devRef .tc main_arg3) := by
  after_results_simp

theorem kept_arg4 (V : Valuation τ sig (Elt F)) :
    StableHlo.after ops V (Proc.devRef .tc main_arg4) = V (Proc.devRef .tc main_arg4) := by
  after_results_simp

theorem kept_arg5 (V : Valuation τ sig (Elt F)) :
    StableHlo.after ops V (Proc.devRef .tc main_arg5) = V (Proc.devRef .tc main_arg5) := by
  after_results_simp

theorem kept_arg6 (V : Valuation τ sig (Elt F)) :
    StableHlo.after ops V (Proc.devRef .tc main_arg6) = V (Proc.devRef .tc main_arg6) := by
  after_results_simp

end Cert.ReferenceIdeal.Args

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.RefChunks.lean ====
/-
  The reference program's host operations cut into the same stretches as the kernel program's: the sixteen
  consecutive pieces of its list of 230 operations, the whole list as their concatenation, and the contents after the
  whole list as the pieces' folds one over the other. Also the reference's run: every weakly fair execution
  terminates with every buffer at the fold of the operations over its launch contents.
-/
import proofs.«128676_j69733089018296_1_alg».proof.Proof.RefOps
import proofs.«128676_j69733089018296_1_alg».proof.Proof.LibAfter

set_option maxRecDepth 16384

noncomputable section

namespace Cert.ReferenceIdeal.Chunks

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Operations 1 … 11: the edge lists: the rows of the two index arrays, the node numbering, the lists with the self-loops appended. -/
abbrev c0 : List (HloOp τ sig (Elt F)) := ((ops (F := F)).drop 0).take 11
/-- Operations 12 … 12: the first product x · W1. -/
abbrev d0 : List (HloOp τ sig (Elt F)) := ((ops (F := F)).drop 11).take 1
/-- Operations 13 … 23: the in-degrees and their inverse square roots, layer one. -/
abbrev c1 : List (HloOp τ sig (Elt F)) := ((ops (F := F)).drop 12).take 11
/-- Operations 24 … 26: the guard that keeps a zero where a degree is not positive. -/
abbrev c1_1 : List (HloOp τ sig (Elt F)) := ((ops (F := F)).drop 23).take 3
/-- Operations 27 … 75: the per-edge weights, the weighted rows summed per target node, the bias; the repulsive edges' degrees. -/
abbrev c1_2 : List (HloOp τ sig (Elt F)) := ((ops (F := F)).drop 26).take 49
/-- Operations 76 … 78: the guard for the repulsive degrees. -/
abbrev c1_3 : List (HloOp τ sig (Elt F)) := ((ops (F := F)).drop 75).take 3
/-- Operations 79 … 110: the repulsive correction subtracted. -/
abbrev c1_4 : List (HloOp τ sig (Elt F)) := ((ops (F := F)).drop 78).take 32
/-- Operations 111 … 113: the clamp at zero. -/
abbrev c1_5 : List (HloOp τ sig (Elt F)) := ((ops (F := F)).drop 110).take 3
/-- Operations 114 … 116: the edge lists with self-loops, made a second time. -/
abbrev cL : List (HloOp τ sig (Elt F)) := ((ops (F := F)).drop 113).take 3
/-- Operations 117 … 117: the second product h · W2. -/
abbrev d1 : List (HloOp τ sig (Elt F)) := ((ops (F := F)).drop 116).take 1
/-- Operations 118 … 128: the in-degrees again, layer two. -/
abbrev c2 : List (HloOp τ sig (Elt F)) := ((ops (F := F)).drop 117).take 11
/-- Operations 129 … 131: the guard again. -/
abbrev c2_1 : List (HloOp τ sig (Elt F)) := ((ops (F := F)).drop 128).take 3
/-- Operations 132 … 180: layer two's aggregation and bias; the repulsive degrees. -/
abbrev c2_2 : List (HloOp τ sig (Elt F)) := ((ops (F := F)).drop 131).take 49
/-- Operations 181 … 183: the guard for the repulsive degrees. -/
abbrev c2_3 : List (HloOp τ sig (Elt F)) := ((ops (F := F)).drop 180).take 3
/-- Operations 184 … 215: the repulsive correction, layer two. -/
abbrev c2_4 : List (HloOp τ sig (Elt F)) := ((ops (F := F)).drop 183).take 32
/-- Operations 216 … 230: the row-wise log-softmax. -/
abbrev c2_5 : List (HloOp τ sig (Elt F)) := ((ops (F := F)).drop 215).take 15

/-- The list is its sixteen pieces in order. -/
theorem ops_eq : (ops (F := F)) = c0 ++ (d0 ++ (c1 ++ (c1_1 ++ (c1_2 ++ (c1_3 ++ (c1_4 ++ (c1_5 ++ (cL ++ (d1 ++ (c2 ++ (c2_1 ++ (c2_2 ++ (c2_3 ++ (c2_4 ++ (c2_5))))))))))))))) := rfl

/-- The contents after the whole list: each piece folded over the contents the pieces before it leave. -/
theorem after_ops (V : Valuation τ sig (Elt F)) :
    StableHlo.after ops V = StableHlo.after c2_5 (StableHlo.after c2_4 (StableHlo.after c2_3 (StableHlo.after c2_2 (StableHlo.after c2_1 (StableHlo.after c2 (StableHlo.after d1 (StableHlo.after cL (StableHlo.after c1_5 (StableHlo.after c1_4 (StableHlo.after c1_3 (StableHlo.after c1_2 (StableHlo.after c1_1 (StableHlo.after c1 (StableHlo.after d0 (StableHlo.after c0 (V)))))))))))))))) := by
  refine (congrArg (fun l => StableHlo.after l V) ops_eq).trans ?_
  simp only [Cert.After.after_append]

/-- The reference's run: termination, no fault, every buffer at the fold of the operations over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (launchContents m d) (Proc.devRef .tc b) :=
  run_seq scopedRefs_eq scopedSems_eq defs main (fun _ => ops) main_eq (fun _ => ops_sub) m ρ

end Cert.ReferenceIdeal.Chunks

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.RelBase.lean ====
/-
  The two programs side by side. Both run the same host operations on the same arguments, the kernel program with
  its two products computed by pipelined regions and the reference with one host product each; the reference also
  makes the edge lists with self-loops a second time before its second layer. The relations below say which
  buffers of the two programs hold equal contents at corresponding places of the two runs:
    * `Init`  — at launch: the seven arguments;
    * `Rel1`  — through layer one: the repulsive edges' two index vectors, the two edge lists with self-loops (also
                 spelt as the concatenation the reference will make again: its own first or second row of the edge
                 array followed by the node numbering), the two bias vectors and the second weight matrix;
    * `Rel2`  — through layer two: the index vectors again, the kernel program's edge lists against the reference's
                 second copies, the second bias.
  A stretch of operations read at a buffer is evaluated by rewriting, on both sides at once (`eval_pair`).
-/
import proofs.«128676_j69733089018296_1_alg».proof.Proof.Gen.KernelIdeal.Launch
import proofs.«128676_j69733089018296_1_alg».proof.Proof.RefChunks
import proofs.«128676_j69733089018296_1_alg».proof.Proof.LibCat

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

/-- At launch the two programs' argument arrays agree. -/
structure Init (VK : Valuation Cert.KernelIdeal.τ Cert.KernelIdeal.sig (Elt F)) (VR : Valuation Cert.ReferenceIdeal.τ Cert.ReferenceIdeal.sig (Elt F)) : Prop where
  a0 : VK (Proc.devRef .tc Cert.KernelIdeal.main_arg0) = VR (Proc.devRef .tc Cert.ReferenceIdeal.main_arg0)
  a1 : VK (Proc.devRef .tc Cert.KernelIdeal.main_arg1) = VR (Proc.devRef .tc Cert.ReferenceIdeal.main_arg1)
  a2 : VK (Proc.devRef .tc Cert.KernelIdeal.main_arg2) = VR (Proc.devRef .tc Cert.ReferenceIdeal.main_arg2)
  a3 : VK (Proc.devRef .tc Cert.KernelIdeal.main_arg3) = VR (Proc.devRef .tc Cert.ReferenceIdeal.main_arg3)
  a4 : VK (Proc.devRef .tc Cert.KernelIdeal.main_arg4) = VR (Proc.devRef .tc Cert.ReferenceIdeal.main_arg4)
  a5 : VK (Proc.devRef .tc Cert.KernelIdeal.main_arg5) = VR (Proc.devRef .tc Cert.ReferenceIdeal.main_arg5)
  a6 : VK (Proc.devRef .tc Cert.KernelIdeal.main_arg6) = VR (Proc.devRef .tc Cert.ReferenceIdeal.main_arg6)

/-- The long-lived buffers agree, through layer one. -/
structure Rel1 (VK : Valuation Cert.KernelIdeal.τ Cert.KernelIdeal.sig (Elt F)) (VR : Valuation Cert.ReferenceIdeal.τ Cert.ReferenceIdeal.sig (Elt F)) : Prop where
  v5 : VK (Proc.devRef .tc Cert.KernelIdeal.main_v5) = VR (Proc.devRef .tc Cert.ReferenceIdeal.main_v5)
  v7 : VK (Proc.devRef .tc Cert.KernelIdeal.main_v7) = VR (Proc.devRef .tc Cert.ReferenceIdeal.main_v7)
  v9 : VK (Proc.devRef .tc Cert.KernelIdeal.main_v9) = VR (Proc.devRef .tc Cert.ReferenceIdeal.main_v9)
  v10 : VK (Proc.devRef .tc Cert.KernelIdeal.main_v10) = VR (Proc.devRef .tc Cert.ReferenceIdeal.main_v10)
  s9 : VK (Proc.devRef .tc Cert.KernelIdeal.main_v9) = Cert.Cat.cat2 Cert.ReferenceIdeal.S3300000 0 Cert.ReferenceIdeal.S3200000 Cert.ReferenceIdeal.S100000 Cert.ReferenceIdeal.Facts₀.concatenates_S3200000_S100000_S3300000_d0 (VR (Proc.devRef .tc Cert.ReferenceIdeal.main_v1)) (iotaInDim Cert.ReferenceIdeal.S100000 32 0)
  s10 : VK (Proc.devRef .tc Cert.KernelIdeal.main_v10) = Cert.Cat.cat2 Cert.ReferenceIdeal.S3300000 0 Cert.ReferenceIdeal.S3200000 Cert.ReferenceIdeal.S100000 Cert.ReferenceIdeal.Facts₀.concatenates_S3200000_S100000_S3300000_d0 (VR (Proc.devRef .tc Cert.ReferenceIdeal.main_v3)) (iotaInDim Cert.ReferenceIdeal.S100000 32 0)
  a4 : VK (Proc.devRef .tc Cert.KernelIdeal.main_arg4) = VR (Proc.devRef .tc Cert.ReferenceIdeal.main_arg4)
  a5 : VK (Proc.devRef .tc Cert.KernelIdeal.main_arg5) = VR (Proc.devRef .tc Cert.ReferenceIdeal.main_arg5)
  a6 : VK (Proc.devRef .tc Cert.KernelIdeal.main_arg6) = VR (Proc.devRef .tc Cert.ReferenceIdeal.main_arg6)

/-- The long-lived buffers agree, through layer two: the kernel program's edge lists against the reference's second copies. -/
structure Rel2 (VK : Valuation Cert.KernelIdeal.τ Cert.KernelIdeal.sig (Elt F)) (VR : Valuation Cert.ReferenceIdeal.τ Cert.ReferenceIdeal.sig (Elt F)) : Prop where
  v5 : VK (Proc.devRef .tc Cert.KernelIdeal.main_v5) = VR (Proc.devRef .tc Cert.ReferenceIdeal.main_v5)
  v7 : VK (Proc.devRef .tc Cert.KernelIdeal.main_v7) = VR (Proc.devRef .tc Cert.ReferenceIdeal.main_v7)
  v9 : VK (Proc.devRef .tc Cert.KernelIdeal.main_v9) = VR (Proc.devRef .tc Cert.ReferenceIdeal.main_v87)
  v10 : VK (Proc.devRef .tc Cert.KernelIdeal.main_v10) = VR (Proc.devRef .tc Cert.ReferenceIdeal.main_v88)
  a6 : VK (Proc.devRef .tc Cert.KernelIdeal.main_arg6) = VR (Proc.devRef .tc Cert.ReferenceIdeal.main_arg6)

/-- Evaluates a stretch of the kernel program's host operations and the matching piece of the reference's, each read
    at a buffer: the piece is cut out of the reference's list, then both folds are rewritten operation by operation
    (two-piece concatenations folded into binary functions so that their pieces are reached). -/
macro "eval_pair " k:ident r:ident : tactic => `(tactic| (
  simp only [$k:ident, $r:ident, Cert.ReferenceIdeal.ValueP.ops, List.drop_succ_cons, List.drop_zero, List.take_succ_cons, List.take_zero]
  eval_line))

end Cert.Bridge

end
-- ==== Proof.Stage0.lean ====
/-
  The first stretch of both programs: the two rows of the edge array and of the repulsive-edge array taken out as
  vectors, the node numbering, and the two edge lists with the self-loops appended. From argument arrays that agree,
  the two programs leave equal vectors; the kernel program's two edge lists are also the concatenation of the
  reference's own first or second row with the node numbering, which is how the reference will make its second copies.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- After the first stretch the long-lived buffers agree. -/
theorem rel_of_init (h : Init VK VR) : Rel1 (StableHlo.after Cert.KernelIdeal.Gen.hostOps0 VK) (StableHlo.after Cert.ReferenceIdeal.Chunks.c0 VR) :=
  ⟨by (eval_pair Cert.KernelIdeal.Gen.hostOps0 Cert.ReferenceIdeal.Chunks.c0 <;> (try simp only [h.a2]) <;> rfl),
   by (eval_pair Cert.KernelIdeal.Gen.hostOps0 Cert.ReferenceIdeal.Chunks.c0 <;> (try simp only [h.a2]) <;> rfl),
   by (eval_pair Cert.KernelIdeal.Gen.hostOps0 Cert.ReferenceIdeal.Chunks.c0 <;> (try simp only [h.a1]) <;> rfl),
   by (eval_pair Cert.KernelIdeal.Gen.hostOps0 Cert.ReferenceIdeal.Chunks.c0 <;> (try simp only [h.a1]) <;> rfl),
   by (eval_pair Cert.KernelIdeal.Gen.hostOps0 Cert.ReferenceIdeal.Chunks.c0 <;> (try simp only [h.a1]) <;> rfl),
   by (eval_pair Cert.KernelIdeal.Gen.hostOps0 Cert.ReferenceIdeal.Chunks.c0 <;> (try simp only [h.a1]) <;> rfl),
   by (eval_pair Cert.KernelIdeal.Gen.hostOps0 Cert.ReferenceIdeal.Chunks.c0 <;> (try simp only [h.a4]) <;> rfl),
   by (eval_pair Cert.KernelIdeal.Gen.hostOps0 Cert.ReferenceIdeal.Chunks.c0 <;> (try simp only [h.a5]) <;> rfl),
   by (eval_pair Cert.KernelIdeal.Gen.hostOps0 Cert.ReferenceIdeal.Chunks.c0 <;> (try simp only [h.a6]) <;> rfl)⟩

/-- The first product's two operands are not written by the first stretch. -/
theorem operands_of_init (h : Init VK VR) :
    StableHlo.after Cert.KernelIdeal.Gen.hostOps0 VK (Proc.devRef .tc Cert.KernelIdeal.main_arg0) = StableHlo.after Cert.ReferenceIdeal.Chunks.c0 VR (Proc.devRef .tc Cert.ReferenceIdeal.main_arg0)
    ∧ StableHlo.after Cert.KernelIdeal.Gen.hostOps0 VK (Proc.devRef .tc Cert.KernelIdeal.main_arg3) = StableHlo.after Cert.ReferenceIdeal.Chunks.c0 VR (Proc.devRef .tc Cert.ReferenceIdeal.main_arg3) :=
  ⟨by (eval_pair Cert.KernelIdeal.Gen.hostOps0 Cert.ReferenceIdeal.Chunks.c0 <;> (try simp only [h.a0]) <;> rfl), by (eval_pair Cert.KernelIdeal.Gen.hostOps0 Cert.ReferenceIdeal.Chunks.c0 <;> (try simp only [h.a3]) <;> rfl)⟩

end Cert.Bridge

end
-- ==== Proof.Stage1.lean ====
/-
  Layer one's host operations, stretch by stretch, in the two programs: run from contents that agree at the buffers
  a stretch reads, the two programs leave equal contents at the buffers it writes. The stretches: the in-degree of every
  node (a scatter-add of ones over the target list) with its positivity test and inverse square root; the guard that
  keeps a zero where the degree is not positive; the per-edge weights (the two endpoints' factors gathered and
  multiplied), the weighted rows of the first product gathered by source and scatter-added by target, the bias row, and
  the repulsive edges' degrees; their guard; the repulsive correction (one weighted row gathered per node, subtracted);
  the clamp at zero.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- The in-degrees: their positivity test, their inverse square roots, the guard's zero. -/
theorem degree1 (h : Rel1 VK VR) :
    StableHlo.after Cert.KernelIdeal.Gen.hostOps1 VK (Proc.devRef .tc Cert.KernelIdeal.main_v17) = StableHlo.after Cert.ReferenceIdeal.Chunks.c1 VR (Proc.devRef .tc Cert.ReferenceIdeal.main_v17)
    ∧ StableHlo.after Cert.KernelIdeal.Gen.hostOps1 VK (Proc.devRef .tc Cert.KernelIdeal.main_v18) = StableHlo.after Cert.ReferenceIdeal.Chunks.c1 VR (Proc.devRef .tc Cert.ReferenceIdeal.main_v18)
    ∧ StableHlo.after Cert.KernelIdeal.Gen.hostOps1 VK (Proc.devRef .tc Cert.KernelIdeal.main_cst_2) = StableHlo.after Cert.ReferenceIdeal.Chunks.c1 VR (Proc.devRef .tc Cert.ReferenceIdeal.main_cst_2) := by
  refine ⟨?_, ?_, ?_⟩ <;>
    (eval_pair Cert.KernelIdeal.Gen.hostOps1 Cert.ReferenceIdeal.Chunks.c1 <;> (try simp only [h.v10]) <;> rfl)

/-- The guarded inverse square roots of the in-degrees. -/
theorem guard1 (h17 : VK (Proc.devRef .tc Cert.KernelIdeal.main_v17) = VR (Proc.devRef .tc Cert.ReferenceIdeal.main_v17)) (h18 : VK (Proc.devRef .tc Cert.KernelIdeal.main_v18) = VR (Proc.devRef .tc Cert.ReferenceIdeal.main_v18)) (hc : VK (Proc.devRef .tc Cert.KernelIdeal.main_cst_2) = VR (Proc.devRef .tc Cert.ReferenceIdeal.main_cst_2)) :
    StableHlo.after Cert.KernelIdeal.Gen.hostOps1_1 VK (Proc.devRef .tc Cert.KernelIdeal.main_v19) = StableHlo.after Cert.ReferenceIdeal.Chunks.c1_1 VR (Proc.devRef .tc Cert.ReferenceIdeal.main_v19) := by
  eval_pair Cert.KernelIdeal.Gen.hostOps1_1 Cert.ReferenceIdeal.Chunks.c1_1 <;> (try simp only [h17, h18, hc]) <;> rfl

/-- Layer one's aggregated rows plus the bias, and the repulsive edges' degree test, inverse square roots and guard's zero. -/
theorem aggregate1 (h : Rel1 VK VR) (h19 : VK (Proc.devRef .tc Cert.KernelIdeal.main_v19) = VR (Proc.devRef .tc Cert.ReferenceIdeal.main_v19)) (h11 : VK (Proc.devRef .tc Cert.KernelIdeal.main_v11) = VR (Proc.devRef .tc Cert.ReferenceIdeal.main_v11)) :
    StableHlo.after Cert.KernelIdeal.Gen.hostOps1_2 VK (Proc.devRef .tc Cert.KernelIdeal.main_v50) = StableHlo.after Cert.ReferenceIdeal.Chunks.c1_2 VR (Proc.devRef .tc Cert.ReferenceIdeal.main_v50)
    ∧ StableHlo.after Cert.KernelIdeal.Gen.hostOps1_2 VK (Proc.devRef .tc Cert.KernelIdeal.main_v56) = StableHlo.after Cert.ReferenceIdeal.Chunks.c1_2 VR (Proc.devRef .tc Cert.ReferenceIdeal.main_v56)
    ∧ StableHlo.after Cert.KernelIdeal.Gen.hostOps1_2 VK (Proc.devRef .tc Cert.KernelIdeal.main_v57) = StableHlo.after Cert.ReferenceIdeal.Chunks.c1_2 VR (Proc.devRef .tc Cert.ReferenceIdeal.main_v57)
    ∧ StableHlo.after Cert.KernelIdeal.Gen.hostOps1_2 VK (Proc.devRef .tc Cert.KernelIdeal.main_cst_12) = StableHlo.after Cert.ReferenceIdeal.Chunks.c1_2 VR (Proc.devRef .tc Cert.ReferenceIdeal.main_cst_12) := by
  refine ⟨?_, ?_, ?_, ?_⟩ <;>
    (eval_pair Cert.KernelIdeal.Gen.hostOps1_2 Cert.ReferenceIdeal.Chunks.c1_2 <;> (try simp only [h.v9, h.v10, h.v7, h.a4, h19, h11]) <;> rfl)

/-- The guarded inverse square roots of the repulsive degrees. -/
theorem guard1r (h56 : VK (Proc.devRef .tc Cert.KernelIdeal.main_v56) = VR (Proc.devRef .tc Cert.ReferenceIdeal.main_v56)) (h57 : VK (Proc.devRef .tc Cert.KernelIdeal.main_v57) = VR (Proc.devRef .tc Cert.ReferenceIdeal.main_v57)) (hc : VK (Proc.devRef .tc Cert.KernelIdeal.main_cst_12) = VR (Proc.devRef .tc Cert.ReferenceIdeal.main_cst_12)) :
    StableHlo.after Cert.KernelIdeal.Gen.hostOps1_3 VK (Proc.devRef .tc Cert.KernelIdeal.main_v58) = StableHlo.after Cert.ReferenceIdeal.Chunks.c1_3 VR (Proc.devRef .tc Cert.ReferenceIdeal.main_v58) := by
  eval_pair Cert.KernelIdeal.Gen.hostOps1_3 Cert.ReferenceIdeal.Chunks.c1_3 <;> (try simp only [h56, h57, hc]) <;> rfl

/-- Layer one after the repulsive correction. -/
theorem repulse1 (h : Rel1 VK VR) (h58 : VK (Proc.devRef .tc Cert.KernelIdeal.main_v58) = VR (Proc.devRef .tc Cert.ReferenceIdeal.main_v58)) (h50 : VK (Proc.devRef .tc Cert.KernelIdeal.main_v50) = VR (Proc.devRef .tc Cert.ReferenceIdeal.main_v50)) :
    StableHlo.after Cert.KernelIdeal.Gen.hostOps1_4 VK (Proc.devRef .tc Cert.KernelIdeal.main_v84) = StableHlo.after Cert.ReferenceIdeal.Chunks.c1_4 VR (Proc.devRef .tc Cert.ReferenceIdeal.main_v84) := by
  eval_pair Cert.KernelIdeal.Gen.hostOps1_4 Cert.ReferenceIdeal.Chunks.c1_4 <;> (try simp only [h.v5, h.v7, h58, h50]) <;> rfl

/-- Layer one clamped at zero. -/
theorem clamp1 (h84 : VK (Proc.devRef .tc Cert.KernelIdeal.main_v84) = VR (Proc.devRef .tc Cert.ReferenceIdeal.main_v84)) :
    StableHlo.after Cert.KernelIdeal.Gen.hostOps1_5 VK (Proc.devRef .tc Cert.KernelIdeal.main_v85) = StableHlo.after Cert.ReferenceIdeal.Chunks.c1_5 VR (Proc.devRef .tc Cert.ReferenceIdeal.main_v85) := by
  eval_pair Cert.KernelIdeal.Gen.hostOps1_5 Cert.ReferenceIdeal.Chunks.c1_5 <;> (try simp only [h84]) <;> rfl

/-- The first product's buffer is not written by the degree stretch or by the guard. -/
theorem keep_v11 (h11 : VK (Proc.devRef .tc Cert.KernelIdeal.main_v11) = VR (Proc.devRef .tc Cert.ReferenceIdeal.main_v11)) :
    StableHlo.after Cert.KernelIdeal.Gen.hostOps1 VK (Proc.devRef .tc Cert.KernelIdeal.main_v11) = StableHlo.after Cert.ReferenceIdeal.Chunks.c1 VR (Proc.devRef .tc Cert.ReferenceIdeal.main_v11)
    ∧ (∀ (VK' : Valuation Cert.KernelIdeal.τ Cert.KernelIdeal.sig (Elt F)) (VR' : Valuation Cert.ReferenceIdeal.τ Cert.ReferenceIdeal.sig (Elt F)), VK' (Proc.devRef .tc Cert.KernelIdeal.main_v11) = VR' (Proc.devRef .tc Cert.ReferenceIdeal.main_v11) →
        StableHlo.after Cert.KernelIdeal.Gen.hostOps1_1 VK' (Proc.devRef .tc Cert.KernelIdeal.main_v11) = StableHlo.after Cert.ReferenceIdeal.Chunks.c1_1 VR' (Proc.devRef .tc Cert.ReferenceIdeal.main_v11)) := by
  refine ⟨?_, fun VK' VR' h' => ?_⟩
  · eval_pair Cert.KernelIdeal.Gen.hostOps1 Cert.ReferenceIdeal.Chunks.c1; exact h11
  · eval_pair Cert.KernelIdeal.Gen.hostOps1_1 Cert.ReferenceIdeal.Chunks.c1_1; exact h'

/-- The aggregated rows' buffer is not written by the repulsive guard. -/
theorem keep_v50 (h50 : VK (Proc.devRef .tc Cert.KernelIdeal.main_v50) = VR (Proc.devRef .tc Cert.ReferenceIdeal.main_v50)) :
    StableHlo.after Cert.KernelIdeal.Gen.hostOps1_3 VK (Proc.devRef .tc Cert.KernelIdeal.main_v50) = StableHlo.after Cert.ReferenceIdeal.Chunks.c1_3 VR (Proc.devRef .tc Cert.ReferenceIdeal.main_v50) := by
  eval_pair Cert.KernelIdeal.Gen.hostOps1_3 Cert.ReferenceIdeal.Chunks.c1_3; exact h50

end Cert.Bridge

end
-- ==== Proof.Stage2.lean ====
/-
  Layer two's host operations, stretch by stretch, in the two programs, as for layer one: the in-degrees again with
  their test and inverse square roots; the guard; the per-edge weights, the weighted rows of the second product
  gathered by source and scatter-added by target, the second bias row, and the repulsive degrees; their guard; the
  repulsive correction; and the row-wise log-softmax (the row maximum subtracted, the exponentials summed along the
  row, the logarithm of the sum subtracted). The kernel program reads its one pair of edge lists where the
  reference reads its second copies.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- The in-degrees, layer two: their positivity test, their inverse square roots, the guard's zero. -/
theorem degree2 (h : Rel2 VK VR) :
    StableHlo.after Cert.KernelIdeal.Gen.hostOps2 VK (Proc.devRef .tc Cert.KernelIdeal.main_v92) = StableHlo.after Cert.ReferenceIdeal.Chunks.c2 VR (Proc.devRef .tc Cert.ReferenceIdeal.main_v95)
    ∧ StableHlo.after Cert.KernelIdeal.Gen.hostOps2 VK (Proc.devRef .tc Cert.KernelIdeal.main_v93) = StableHlo.after Cert.ReferenceIdeal.Chunks.c2 VR (Proc.devRef .tc Cert.ReferenceIdeal.main_v96)
    ∧ StableHlo.after Cert.KernelIdeal.Gen.hostOps2 VK (Proc.devRef .tc Cert.KernelIdeal.main_cst_22) = StableHlo.after Cert.ReferenceIdeal.Chunks.c2 VR (Proc.devRef .tc Cert.ReferenceIdeal.main_cst_22) := by
  refine ⟨?_, ?_, ?_⟩ <;>
    (eval_pair Cert.KernelIdeal.Gen.hostOps2 Cert.ReferenceIdeal.Chunks.c2 <;> (try simp only [h.v10]) <;> rfl)

/-- The guarded inverse square roots of the in-degrees, layer two. -/
theorem guard2 (h92 : VK (Proc.devRef .tc Cert.KernelIdeal.main_v92) = VR (Proc.devRef .tc Cert.ReferenceIdeal.main_v95)) (h93 : VK (Proc.devRef .tc Cert.KernelIdeal.main_v93) = VR (Proc.devRef .tc Cert.ReferenceIdeal.main_v96)) (hc : VK (Proc.devRef .tc Cert.KernelIdeal.main_cst_22) = VR (Proc.devRef .tc Cert.ReferenceIdeal.main_cst_22)) :
    StableHlo.after Cert.KernelIdeal.Gen.hostOps2_1 VK (Proc.devRef .tc Cert.KernelIdeal.main_v94) = StableHlo.after Cert.ReferenceIdeal.Chunks.c2_1 VR (Proc.devRef .tc Cert.ReferenceIdeal.main_v97) := by
  eval_pair Cert.KernelIdeal.Gen.hostOps2_1 Cert.ReferenceIdeal.Chunks.c2_1 <;> (try simp only [h92, h93, hc]) <;> rfl

/-- Layer two's aggregated rows plus the bias, and the repulsive edges' degree test, inverse square roots and guard's zero. -/
theorem aggregate2 (h : Rel2 VK VR) (h94 : VK (Proc.devRef .tc Cert.KernelIdeal.main_v94) = VR (Proc.devRef .tc Cert.ReferenceIdeal.main_v97)) (h86 : VK (Proc.devRef .tc Cert.KernelIdeal.main_v86) = VR (Proc.devRef .tc Cert.ReferenceIdeal.main_v89)) :
    StableHlo.after Cert.KernelIdeal.Gen.hostOps2_2 VK (Proc.devRef .tc Cert.KernelIdeal.main_v125) = StableHlo.after Cert.ReferenceIdeal.Chunks.c2_2 VR (Proc.devRef .tc Cert.ReferenceIdeal.main_v128)
    ∧ StableHlo.after Cert.KernelIdeal.Gen.hostOps2_2 VK (Proc.devRef .tc Cert.KernelIdeal.main_v131) = StableHlo.after Cert.ReferenceIdeal.Chunks.c2_2 VR (Proc.devRef .tc Cert.ReferenceIdeal.main_v134)
    ∧ StableHlo.after Cert.KernelIdeal.Gen.hostOps2_2 VK (Proc.devRef .tc Cert.KernelIdeal.main_v132) = StableHlo.after Cert.ReferenceIdeal.Chunks.c2_2 VR (Proc.devRef .tc Cert.ReferenceIdeal.main_v135)
    ∧ StableHlo.after Cert.KernelIdeal.Gen.hostOps2_2 VK (Proc.devRef .tc Cert.KernelIdeal.main_cst_33) = StableHlo.after Cert.ReferenceIdeal.Chunks.c2_2 VR (Proc.devRef .tc Cert.ReferenceIdeal.main_cst_33) := by
  refine ⟨?_, ?_, ?_, ?_⟩ <;>
    (eval_pair Cert.KernelIdeal.Gen.hostOps2_2 Cert.ReferenceIdeal.Chunks.c2_2 <;> (try simp only [h.v9, h.v10, h.v7, h.a6, h94, h86]) <;> rfl)

/-- The guarded inverse square roots of the repulsive degrees, layer two. -/
theorem guard2r (h131 : VK (Proc.devRef .tc Cert.KernelIdeal.main_v131) = VR (Proc.devRef .tc Cert.ReferenceIdeal.main_v134)) (h132 : VK (Proc.devRef .tc Cert.KernelIdeal.main_v132) = VR (Proc.devRef .tc Cert.ReferenceIdeal.main_v135)) (hc : VK (Proc.devRef .tc Cert.KernelIdeal.main_cst_33) = VR (Proc.devRef .tc Cert.ReferenceIdeal.main_cst_33)) :
    StableHlo.after Cert.KernelIdeal.Gen.hostOps2_3 VK (Proc.devRef .tc Cert.KernelIdeal.main_v133) = StableHlo.after Cert.ReferenceIdeal.Chunks.c2_3 VR (Proc.devRef .tc Cert.ReferenceIdeal.main_v136) := by
  eval_pair Cert.KernelIdeal.Gen.hostOps2_3 Cert.ReferenceIdeal.Chunks.c2_3 <;> (try simp only [h131, h132, hc]) <;> rfl

/-- Layer two after the repulsive correction. -/
theorem repulse2 (h : Rel2 VK VR) (h133 : VK (Proc.devRef .tc Cert.KernelIdeal.main_v133) = VR (Proc.devRef .tc Cert.ReferenceIdeal.main_v136)) (h125 : VK (Proc.devRef .tc Cert.KernelIdeal.main_v125) = VR (Proc.devRef .tc Cert.ReferenceIdeal.main_v128)) :
    StableHlo.after Cert.KernelIdeal.Gen.hostOps2_4 VK (Proc.devRef .tc Cert.KernelIdeal.main_v159) = StableHlo.after Cert.ReferenceIdeal.Chunks.c2_4 VR (Proc.devRef .tc Cert.ReferenceIdeal.main_v162) := by
  eval_pair Cert.KernelIdeal.Gen.hostOps2_4 Cert.ReferenceIdeal.Chunks.c2_4 <;> (try simp only [h.v5, h.v7, h133, h125]) <;> rfl

/-- The row-wise log-softmax of layer two: the programs' results. -/
theorem logSoftmax (h159 : VK (Proc.devRef .tc Cert.KernelIdeal.main_v159) = VR (Proc.devRef .tc Cert.ReferenceIdeal.main_v162)) :
    StableHlo.after Cert.KernelIdeal.Gen.hostOps2_5 VK (Proc.devRef .tc Cert.KernelIdeal.main_v160) = StableHlo.after Cert.ReferenceIdeal.Chunks.c2_5 VR (Proc.devRef .tc Cert.ReferenceIdeal.main_v163) := by
  eval_pair Cert.KernelIdeal.Gen.hostOps2_5 Cert.ReferenceIdeal.Chunks.c2_5 <;> (try simp only [h159]) <;> rfl

/-- The second product's buffer is not written by the degree stretch or by the guard. -/
theorem keep_v86 (h86 : VK (Proc.devRef .tc Cert.KernelIdeal.main_v86) = VR (Proc.devRef .tc Cert.ReferenceIdeal.main_v89)) :
    StableHlo.after Cert.KernelIdeal.Gen.hostOps2 VK (Proc.devRef .tc Cert.KernelIdeal.main_v86) = StableHlo.after Cert.ReferenceIdeal.Chunks.c2 VR (Proc.devRef .tc Cert.ReferenceIdeal.main_v89)
    ∧ (∀ (VK' : Valuation Cert.KernelIdeal.τ Cert.KernelIdeal.sig (Elt F)) (VR' : Valuation Cert.ReferenceIdeal.τ Cert.ReferenceIdeal.sig (Elt F)), VK' (Proc.devRef .tc Cert.KernelIdeal.main_v86) = VR' (Proc.devRef .tc Cert.ReferenceIdeal.main_v89) →
        StableHlo.after Cert.KernelIdeal.Gen.hostOps2_1 VK' (Proc.devRef .tc Cert.KernelIdeal.main_v86) = StableHlo.after Cert.ReferenceIdeal.Chunks.c2_1 VR' (Proc.devRef .tc Cert.ReferenceIdeal.main_v89)) := by
  refine ⟨?_, fun VK' VR' h' => ?_⟩
  · eval_pair Cert.KernelIdeal.Gen.hostOps2 Cert.ReferenceIdeal.Chunks.c2; exact h86
  · eval_pair Cert.KernelIdeal.Gen.hostOps2_1 Cert.ReferenceIdeal.Chunks.c2_1; exact h'

/-- The aggregated rows' buffer is not written by the repulsive guard. -/
theorem keep_v125 (h125 : VK (Proc.devRef .tc Cert.KernelIdeal.main_v125) = VR (Proc.devRef .tc Cert.ReferenceIdeal.main_v128)) :
    StableHlo.after Cert.KernelIdeal.Gen.hostOps2_3 VK (Proc.devRef .tc Cert.KernelIdeal.main_v125) = StableHlo.after Cert.ReferenceIdeal.Chunks.c2_3 VR (Proc.devRef .tc Cert.ReferenceIdeal.main_v128) := by
  eval_pair Cert.KernelIdeal.Gen.hostOps2_3 Cert.ReferenceIdeal.Chunks.c2_3; exact h125

end Cert.Bridge

end
-- ==== Proof.Keep1a.lean ====
/-
  The long-lived buffers through layer one's short stretches: no operation of the degree stretch, of either guard, of
  the clamp, or of the reference's first product writes an index vector, an edge list, a bias or the second weight
  matrix, so the two programs still agree there afterwards.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- Through the in-degree stretch. -/
theorem keep1_degree (h : Rel1 VK VR) : Rel1 (StableHlo.after Cert.KernelIdeal.Gen.hostOps1 VK) (StableHlo.after Cert.ReferenceIdeal.Chunks.c1 VR) :=
  ⟨by eval_pair Cert.KernelIdeal.Gen.hostOps1 Cert.ReferenceIdeal.Chunks.c1; exact h.v5,
   by eval_pair Cert.KernelIdeal.Gen.hostOps1 Cert.ReferenceIdeal.Chunks.c1; exact h.v7,
   by eval_pair Cert.KernelIdeal.Gen.hostOps1 Cert.ReferenceIdeal.Chunks.c1; exact h.v9,
   by eval_pair Cert.KernelIdeal.Gen.hostOps1 Cert.ReferenceIdeal.Chunks.c1; exact h.v10,
   by eval_pair Cert.KernelIdeal.Gen.hostOps1 Cert.ReferenceIdeal.Chunks.c1; exact h.s9,
   by eval_pair Cert.KernelIdeal.Gen.hostOps1 Cert.ReferenceIdeal.Chunks.c1; exact h.s10,
   by eval_pair Cert.KernelIdeal.Gen.hostOps1 Cert.ReferenceIdeal.Chunks.c1; exact h.a4,
   by eval_pair Cert.KernelIdeal.Gen.hostOps1 Cert.ReferenceIdeal.Chunks.c1; exact h.a5,
   by eval_pair Cert.KernelIdeal.Gen.hostOps1 Cert.ReferenceIdeal.Chunks.c1; exact h.a6⟩

/-- Through the guard. -/
theorem keep1_guard (h : Rel1 VK VR) : Rel1 (StableHlo.after Cert.KernelIdeal.Gen.hostOps1_1 VK) (StableHlo.after Cert.ReferenceIdeal.Chunks.c1_1 VR) :=
  ⟨by eval_pair Cert.KernelIdeal.Gen.hostOps1_1 Cert.ReferenceIdeal.Chunks.c1_1; exact h.v5,
   by eval_pair Cert.KernelIdeal.Gen.hostOps1_1 Cert.ReferenceIdeal.Chunks.c1_1; exact h.v7,
   by eval_pair Cert.KernelIdeal.Gen.hostOps1_1 Cert.ReferenceIdeal.Chunks.c1_1; exact h.v9,
   by eval_pair Cert.KernelIdeal.Gen.hostOps1_1 Cert.ReferenceIdeal.Chunks.c1_1; exact h.v10,
   by eval_pair Cert.KernelIdeal.Gen.hostOps1_1 Cert.ReferenceIdeal.Chunks.c1_1; exact h.s9,
   by eval_pair Cert.KernelIdeal.Gen.hostOps1_1 Cert.ReferenceIdeal.Chunks.c1_1; exact h.s10,
   by eval_pair Cert.KernelIdeal.Gen.hostOps1_1 Cert.ReferenceIdeal.Chunks.c1_1; exact h.a4,
   by eval_pair Cert.KernelIdeal.Gen.hostOps1_1 Cert.ReferenceIdeal.Chunks.c1_1; exact h.a5,
   by eval_pair Cert.KernelIdeal.Gen.hostOps1_1 Cert.ReferenceIdeal.Chunks.c1_1; exact h.a6⟩

/-- Through the repulsive guard. -/
theorem keep1_guardr (h : Rel1 VK VR) : Rel1 (StableHlo.after Cert.KernelIdeal.Gen.hostOps1_3 VK) (StableHlo.after Cert.ReferenceIdeal.Chunks.c1_3 VR) :=
  ⟨by eval_pair Cert.KernelIdeal.Gen.hostOps1_3 Cert.ReferenceIdeal.Chunks.c1_3; exact h.v5,
   by eval_pair Cert.KernelIdeal.Gen.hostOps1_3 Cert.ReferenceIdeal.Chunks.c1_3; exact h.v7,
   by eval_pair Cert.KernelIdeal.Gen.hostOps1_3 Cert.ReferenceIdeal.Chunks.c1_3; exact h.v9,
   by eval_pair Cert.KernelIdeal.Gen.hostOps1_3 Cert.ReferenceIdeal.Chunks.c1_3; exact h.v10,
   by eval_pair Cert.KernelIdeal.Gen.hostOps1_3 Cert.ReferenceIdeal.Chunks.c1_3; exact h.s9,
   by eval_pair Cert.KernelIdeal.Gen.hostOps1_3 Cert.ReferenceIdeal.Chunks.c1_3; exact h.s10,
   by eval_pair Cert.KernelIdeal.Gen.hostOps1_3 Cert.ReferenceIdeal.Chunks.c1_3; exact h.a4,
   by eval_pair Cert.KernelIdeal.Gen.hostOps1_3 Cert.ReferenceIdeal.Chunks.c1_3; exact h.a5,
   by eval_pair Cert.KernelIdeal.Gen.hostOps1_3 Cert.ReferenceIdeal.Chunks.c1_3; exact h.a6⟩

/-- Through the clamp. -/
theorem keep1_clamp (h : Rel1 VK VR) : Rel1 (StableHlo.after Cert.KernelIdeal.Gen.hostOps1_5 VK) (StableHlo.after Cert.ReferenceIdeal.Chunks.c1_5 VR) :=
  ⟨by eval_pair Cert.KernelIdeal.Gen.hostOps1_5 Cert.ReferenceIdeal.Chunks.c1_5; exact h.v5,
   by eval_pair Cert.KernelIdeal.Gen.hostOps1_5 Cert.ReferenceIdeal.Chunks.c1_5; exact h.v7,
   by eval_pair Cert.KernelIdeal.Gen.hostOps1_5 Cert.ReferenceIdeal.Chunks.c1_5; exact h.v9,
   by eval_pair Cert.KernelIdeal.Gen.hostOps1_5 Cert.ReferenceIdeal.Chunks.c1_5; exact h.v10,
   by eval_pair Cert.KernelIdeal.Gen.hostOps1_5 Cert.ReferenceIdeal.Chunks.c1_5; exact h.s9,
   by eval_pair Cert.KernelIdeal.Gen.hostOps1_5 Cert.ReferenceIdeal.Chunks.c1_5; exact h.s10,
   by eval_pair Cert.KernelIdeal.Gen.hostOps1_5 Cert.ReferenceIdeal.Chunks.c1_5; exact h.a4,
   by eval_pair Cert.KernelIdeal.Gen.hostOps1_5 Cert.ReferenceIdeal.Chunks.c1_5; exact h.a5,
   by eval_pair Cert.KernelIdeal.Gen.hostOps1_5 Cert.ReferenceIdeal.Chunks.c1_5; exact h.a6⟩

/-- Through the reference's first product (the kernel program's is a region). -/
theorem keep1_prod (h : Rel1 VK VR) : Rel1 (VK) (StableHlo.after Cert.ReferenceIdeal.Chunks.d0 VR) :=
  ⟨by eval_pair Cert.KernelIdeal.Gen.hostOps0 Cert.ReferenceIdeal.Chunks.d0; exact h.v5,
   by eval_pair Cert.KernelIdeal.Gen.hostOps0 Cert.ReferenceIdeal.Chunks.d0; exact h.v7,
   by eval_pair Cert.KernelIdeal.Gen.hostOps0 Cert.ReferenceIdeal.Chunks.d0; exact h.v9,
   by eval_pair Cert.KernelIdeal.Gen.hostOps0 Cert.ReferenceIdeal.Chunks.d0; exact h.v10,
   by eval_pair Cert.KernelIdeal.Gen.hostOps0 Cert.ReferenceIdeal.Chunks.d0; exact h.s9,
   by eval_pair Cert.KernelIdeal.Gen.hostOps0 Cert.ReferenceIdeal.Chunks.d0; exact h.s10,
   by eval_pair Cert.KernelIdeal.Gen.hostOps0 Cert.ReferenceIdeal.Chunks.d0; exact h.a4,
   by eval_pair Cert.KernelIdeal.Gen.hostOps0 Cert.ReferenceIdeal.Chunks.d0; exact h.a5,
   by eval_pair Cert.KernelIdeal.Gen.hostOps0 Cert.ReferenceIdeal.Chunks.d0; exact h.a6⟩

end Cert.Bridge

end
-- ==== Proof.Keep1b.lean ====
/-
  The long-lived buffers through layer one's two long stretches (the aggregation and the repulsive correction): none of
  their operations writes an index vector, an edge list, a bias or the second weight matrix.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- Through the aggregation stretch. -/
theorem keep1_aggregate (h : Rel1 VK VR) : Rel1 (StableHlo.after Cert.KernelIdeal.Gen.hostOps1_2 VK) (StableHlo.after Cert.ReferenceIdeal.Chunks.c1_2 VR) :=
  ⟨by eval_pair Cert.KernelIdeal.Gen.hostOps1_2 Cert.ReferenceIdeal.Chunks.c1_2; exact h.v5,
   by eval_pair Cert.KernelIdeal.Gen.hostOps1_2 Cert.ReferenceIdeal.Chunks.c1_2; exact h.v7,
   by eval_pair Cert.KernelIdeal.Gen.hostOps1_2 Cert.ReferenceIdeal.Chunks.c1_2; exact h.v9,
   by eval_pair Cert.KernelIdeal.Gen.hostOps1_2 Cert.ReferenceIdeal.Chunks.c1_2; exact h.v10,
   by eval_pair Cert.KernelIdeal.Gen.hostOps1_2 Cert.ReferenceIdeal.Chunks.c1_2; exact h.s9,
   by eval_pair Cert.KernelIdeal.Gen.hostOps1_2 Cert.ReferenceIdeal.Chunks.c1_2; exact h.s10,
   by eval_pair Cert.KernelIdeal.Gen.hostOps1_2 Cert.ReferenceIdeal.Chunks.c1_2; exact h.a4,
   by eval_pair Cert.KernelIdeal.Gen.hostOps1_2 Cert.ReferenceIdeal.Chunks.c1_2; exact h.a5,
   by eval_pair Cert.KernelIdeal.Gen.hostOps1_2 Cert.ReferenceIdeal.Chunks.c1_2; exact h.a6⟩

/-- Through the repulsive correction. -/
theorem keep1_repulse (h : Rel1 VK VR) : Rel1 (StableHlo.after Cert.KernelIdeal.Gen.hostOps1_4 VK) (StableHlo.after Cert.ReferenceIdeal.Chunks.c1_4 VR) :=
  ⟨by eval_pair Cert.KernelIdeal.Gen.hostOps1_4 Cert.ReferenceIdeal.Chunks.c1_4; exact h.v5,
   by eval_pair Cert.KernelIdeal.Gen.hostOps1_4 Cert.ReferenceIdeal.Chunks.c1_4; exact h.v7,
   by eval_pair Cert.KernelIdeal.Gen.hostOps1_4 Cert.ReferenceIdeal.Chunks.c1_4; exact h.v9,
   by eval_pair Cert.KernelIdeal.Gen.hostOps1_4 Cert.ReferenceIdeal.Chunks.c1_4; exact h.v10,
   by eval_pair Cert.KernelIdeal.Gen.hostOps1_4 Cert.ReferenceIdeal.Chunks.c1_4; exact h.s9,
   by eval_pair Cert.KernelIdeal.Gen.hostOps1_4 Cert.ReferenceIdeal.Chunks.c1_4; exact h.s10,
   by eval_pair Cert.KernelIdeal.Gen.hostOps1_4 Cert.ReferenceIdeal.Chunks.c1_4; exact h.a4,
   by eval_pair Cert.KernelIdeal.Gen.hostOps1_4 Cert.ReferenceIdeal.Chunks.c1_4; exact h.a5,
   by eval_pair Cert.KernelIdeal.Gen.hostOps1_4 Cert.ReferenceIdeal.Chunks.c1_4; exact h.a6⟩

end Cert.Bridge

end
-- ==== Proof.Keep2a.lean ====
/-
  The long-lived buffers through layer two's short stretches and the reference's second product.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- Through the in-degree stretch. -/
theorem keep2_degree (h : Rel2 VK VR) : Rel2 (StableHlo.after Cert.KernelIdeal.Gen.hostOps2 VK) (StableHlo.after Cert.ReferenceIdeal.Chunks.c2 VR) :=
  ⟨by eval_pair Cert.KernelIdeal.Gen.hostOps2 Cert.ReferenceIdeal.Chunks.c2; exact h.v5,
   by eval_pair Cert.KernelIdeal.Gen.hostOps2 Cert.ReferenceIdeal.Chunks.c2; exact h.v7,
   by eval_pair Cert.KernelIdeal.Gen.hostOps2 Cert.ReferenceIdeal.Chunks.c2; exact h.v9,
   by eval_pair Cert.KernelIdeal.Gen.hostOps2 Cert.ReferenceIdeal.Chunks.c2; exact h.v10,
   by eval_pair Cert.KernelIdeal.Gen.hostOps2 Cert.ReferenceIdeal.Chunks.c2; exact h.a6⟩

/-- Through the guard. -/
theorem keep2_guard (h : Rel2 VK VR) : Rel2 (StableHlo.after Cert.KernelIdeal.Gen.hostOps2_1 VK) (StableHlo.after Cert.ReferenceIdeal.Chunks.c2_1 VR) :=
  ⟨by eval_pair Cert.KernelIdeal.Gen.hostOps2_1 Cert.ReferenceIdeal.Chunks.c2_1; exact h.v5,
   by eval_pair Cert.KernelIdeal.Gen.hostOps2_1 Cert.ReferenceIdeal.Chunks.c2_1; exact h.v7,
   by eval_pair Cert.KernelIdeal.Gen.hostOps2_1 Cert.ReferenceIdeal.Chunks.c2_1; exact h.v9,
   by eval_pair Cert.KernelIdeal.Gen.hostOps2_1 Cert.ReferenceIdeal.Chunks.c2_1; exact h.v10,
   by eval_pair Cert.KernelIdeal.Gen.hostOps2_1 Cert.ReferenceIdeal.Chunks.c2_1; exact h.a6⟩

/-- Through the repulsive guard. -/
theorem keep2_guardr (h : Rel2 VK VR) : Rel2 (StableHlo.after Cert.KernelIdeal.Gen.hostOps2_3 VK) (StableHlo.after Cert.ReferenceIdeal.Chunks.c2_3 VR) :=
  ⟨by eval_pair Cert.KernelIdeal.Gen.hostOps2_3 Cert.ReferenceIdeal.Chunks.c2_3; exact h.v5,
   by eval_pair Cert.KernelIdeal.Gen.hostOps2_3 Cert.ReferenceIdeal.Chunks.c2_3; exact h.v7,
   by eval_pair Cert.KernelIdeal.Gen.hostOps2_3 Cert.ReferenceIdeal.Chunks.c2_3; exact h.v9,
   by eval_pair Cert.KernelIdeal.Gen.hostOps2_3 Cert.ReferenceIdeal.Chunks.c2_3; exact h.v10,
   by eval_pair Cert.KernelIdeal.Gen.hostOps2_3 Cert.ReferenceIdeal.Chunks.c2_3; exact h.a6⟩

/-- Through the reference's second product (the kernel program's is a region). -/
theorem keep2_prod (h : Rel2 VK VR) : Rel2 (VK) (StableHlo.after Cert.ReferenceIdeal.Chunks.d1 VR) :=
  ⟨by eval_pair Cert.KernelIdeal.Gen.hostOps0 Cert.ReferenceIdeal.Chunks.d1; exact h.v5,
   by eval_pair Cert.KernelIdeal.Gen.hostOps0 Cert.ReferenceIdeal.Chunks.d1; exact h.v7,
   by eval_pair Cert.KernelIdeal.Gen.hostOps0 Cert.ReferenceIdeal.Chunks.d1; exact h.v9,
   by eval_pair Cert.KernelIdeal.Gen.hostOps0 Cert.ReferenceIdeal.Chunks.d1; exact h.v10,
   by eval_pair Cert.KernelIdeal.Gen.hostOps0 Cert.ReferenceIdeal.Chunks.d1; exact h.a6⟩

end Cert.Bridge

end
-- ==== Proof.Keep2b.lean ====
/-
  The long-lived buffers through layer two's aggregation stretch.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- Through the aggregation stretch. -/
theorem keep2_aggregate (h : Rel2 VK VR) : Rel2 (StableHlo.after Cert.KernelIdeal.Gen.hostOps2_2 VK) (StableHlo.after Cert.ReferenceIdeal.Chunks.c2_2 VR) :=
  ⟨by eval_pair Cert.KernelIdeal.Gen.hostOps2_2 Cert.ReferenceIdeal.Chunks.c2_2; exact h.v5,
   by eval_pair Cert.KernelIdeal.Gen.hostOps2_2 Cert.ReferenceIdeal.Chunks.c2_2; exact h.v7,
   by eval_pair Cert.KernelIdeal.Gen.hostOps2_2 Cert.ReferenceIdeal.Chunks.c2_2; exact h.v9,
   by eval_pair Cert.KernelIdeal.Gen.hostOps2_2 Cert.ReferenceIdeal.Chunks.c2_2; exact h.v10,
   by eval_pair Cert.KernelIdeal.Gen.hostOps2_2 Cert.ReferenceIdeal.Chunks.c2_2; exact h.a6⟩

end Cert.Bridge

end
-- ==== Proof.Relist.lean ====
/-
  The reference's own steps between the stretches the two programs share: its two host products, and its second
  making of the edge lists with self-loops. The products are read as the host contraction of the two operands as
  the reference finds them. The second edge lists are the concatenation of the reference's first (second) row of the
  edge array with the node numbering, which is what the kernel program's one pair of lists holds; so from there on
  the kernel program's lists agree with the reference's second copies.
-/
import proofs.«128676_j69733089018296_1_alg».proof.Proof.RelBase

set_option maxRecDepth 16384

noncomputable section

namespace Cert.Bridge

open Idealize.ShloMosaic Idealize.ShloMosaic.TcCoe Idealize.SL.Sem Idealize.ShloMosaic.StableHlo

variable {F : FTy → Type} [FloatOps F]
variable {VK : Valuation Cert.KernelIdeal.τ Cert.KernelIdeal.sig (Elt F)} {VR : Valuation Cert.ReferenceIdeal.τ Cert.ReferenceIdeal.sig (Elt F)}

set_option maxHeartbeats 4000000

/-- The reference's first product, read at its buffer. -/
theorem ref_product1 (VR : Valuation Cert.ReferenceIdeal.τ Cert.ReferenceIdeal.sig (Elt F)) :
    StableHlo.after Cert.ReferenceIdeal.Chunks.d0 VR (Proc.devRef .tc Cert.ReferenceIdeal.main_v11)
      = Host.dotGeneral Cert.ReferenceIdeal.dot_S100000x512_S512x16_S100000x16_1_0_0_1_n_n none (VR (Proc.devRef .tc Cert.ReferenceIdeal.main_arg0)) (VR (Proc.devRef .tc Cert.ReferenceIdeal.main_arg3)) := by
  eval_pair Cert.KernelIdeal.Gen.hostOps0 Cert.ReferenceIdeal.Chunks.d0 <;> rfl

/-- The reference's second product, read at its buffer. -/
theorem ref_product2 (VR : Valuation Cert.ReferenceIdeal.τ Cert.ReferenceIdeal.sig (Elt F)) :
    StableHlo.after Cert.ReferenceIdeal.Chunks.d1 VR (Proc.devRef .tc Cert.ReferenceIdeal.main_v89)
      = Host.dotGeneral Cert.ReferenceIdeal.dot_S100000x16_S16x40_S100000x40_1_0_0_1_n_n none (VR (Proc.devRef .tc Cert.ReferenceIdeal.main_v85)) (VR (Proc.devRef .tc Cert.ReferenceIdeal.main_arg5)) := by
  eval_pair Cert.KernelIdeal.Gen.hostOps0 Cert.ReferenceIdeal.Chunks.d1 <;> rfl

/-- Once the reference has made its second copies of the edge lists, the kernel program's lists agree with them. -/
theorem rel2_of_rel1 (h : Rel1 VK VR) : Rel2 VK (StableHlo.after Cert.ReferenceIdeal.Chunks.cL VR) :=
  ⟨by eval_pair Cert.KernelIdeal.Gen.hostOps0 Cert.ReferenceIdeal.Chunks.cL; exact h.v5,
   by eval_pair Cert.KernelIdeal.Gen.hostOps0 Cert.ReferenceIdeal.Chunks.cL; exact h.v7,
   by eval_pair Cert.KernelIdeal.Gen.hostOps0 Cert.ReferenceIdeal.Chunks.cL; exact h.s9,
   by eval_pair Cert.KernelIdeal.Gen.hostOps0 Cert.ReferenceIdeal.Chunks.cL; exact h.s10,
   by eval_pair Cert.KernelIdeal.Gen.hostOps0 Cert.ReferenceIdeal.Chunks.cL; exact h.a6⟩

/-- The clamped first layer and the second weight matrix are not written while the lists are made again. -/
theorem keep_relist (h85 : VK (Proc.devRef .tc Cert.KernelIdeal.main_v85) = VR (Proc.devRef .tc Cert.ReferenceIdeal.main_v85)) (h5 : VK (Proc.devRef .tc Cert.KernelIdeal.main_arg5) = VR (Proc.devRef .tc Cert.ReferenceIdeal.main_arg5)) :
    VK (Proc.devRef .tc Cert.KernelIdeal.main_v85) = StableHlo.after Cert.ReferenceIdeal.Chunks.cL VR (Proc.devRef .tc Cert.ReferenceIdeal.main_v85) ∧ VK (Proc.devRef .tc Cert.KernelIdeal.main_arg5) = StableHlo.after Cert.ReferenceIdeal.Chunks.cL VR (Proc.devRef .tc Cert.ReferenceIdeal.main_arg5) :=
  ⟨by eval_pair Cert.KernelIdeal.Gen.hostOps0 Cert.ReferenceIdeal.Chunks.cL; exact h85, by eval_pair Cert.KernelIdeal.Gen.hostOps0 Cert.ReferenceIdeal.Chunks.cL; exact h5⟩

end Cert.Bridge

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Product1.lean ====
/-
  The first pipelined region: the product x · W1, computed twenty row blocks of 5000 rows at a time.
  At each grid point the body loads rows 5000 t … 5000 t + 4999 of x and the whole of W1, rounds both to a narrower
  float format (the identity on the extended reals), multiplies them into a zero accumulator and stores the
  5000 × 16 block. A block of rows of a product is the product of that block of rows with the whole right factor,
  and the twenty blocks tile the 100000 rows, so the output array ends holding the plain product of the two arrays
  as the region finds them.
-/
import proofs.«128676_j69733089018296_1_alg».proof.Proof.Gen.KernelIdeal.Frame
import proofs.«128676_j69733089018296_1_alg».proof.Proof.LibMatProd
import Idealize.ShloMosaic.Lib.Pipeline.Value

set_option maxRecDepth 16384

noncomputable section

namespace Cert.KernelIdeal.Product1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- A whole-block access starts at the zero offsets. -/
theorem zero_offsets : (![0, 0] : Fin 2 → Nat) = fun _ => 0 := funext fun a => by fin_cases a <;> rfl

/-- On the extended reals the body's stored value is the plain product of the two loaded blocks: the two
    roundings are the identity and the accumulator starts at zero. -/
theorem payload_eq (x : Vec Ideal S5000x512 .f32) (w : Vec Ideal S512x16 .f32) :
    k0_pay1 x w = Cert.MatProd.prod x w := by
  unfold k0_pay1
  exact Cert.MatProd.matmul_plain_zero_eq (φ₁ := .bf16) (φ₂ := .bf16) none x w

/-- Where the windows' blocks sit at grid point `t`: the left operand's and the output's blocks at block row `t`,
    block column 0; the right operand's one block at (0, 0). Decided over the twenty points. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point `t` is entry (5000 t + p, k) of the array. -/
theorem left_block (c : Dev nD) (t : Fin cfg0.N) (p : Fin 5000) (k : Fin 512) (r : Fin 100000)
    (hr : r.val = 5000 * t.val + p.val) :
    (iblk0 V c 0 t : Vec Ideal S5000x512 .f32) (ix2 p k) = (V c main_arg0 : S100000x512.Idx → EReal) (ix2 r k) := by
  obtain ⟨e0, e1, -, -, -, -⟩ := index_facts t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The right operand's one block is the whole array. -/
theorem right_block (c : Dev nD) (t : Fin cfg0.N) (k : Fin 512) (q : Fin 16) :
    (iblk0 V c 1 t : Vec Ideal S512x16 .f32) (ix2 k q) = (V c main_arg3 : S512x16.Idx → EReal) (ix2 k q) := by
  obtain ⟨-, -, e2, e3, -, -⟩ := index_facts t
  unfold iblk0
  rw [View.read_apply]
  show V c main_arg3 _ = V c main_arg3 _
  refine congrArg (V c main_arg3) ?_
  funext a
  apply Fin.ext
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- What grid point `t` writes back is block `t` of the product of the two arrays. -/
theorem flushed_eq (c : Dev nD) (t : Fin cfg0.N) :
    (dat0 V c).flushed 2 t
      = ((cfg0.win 2).blk t).view.read (Elt Ideal) (Cert.MatProd.prod (V c main_arg0 : S100000x512.Idx → EReal) (V c main_arg3 : S512x16.Idx → EReal)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x16) zero_offsets]
  rw [payload_eq]
  obtain ⟨-, -, -, -, e4, e5⟩ := index_facts t
  funext j
  obtain ⟨p, q, rfl⟩ : ∃ (p : Fin 5000) (q : Fin 16), j = ix2 p q := ⟨j 0, j 1, eq_ix2 j⟩
  have ht : t.val < 20 := by have h1 := t.isLt; have hN : cfg0.N = 20 := N_0; omega
  show Cert.MatProd.prod (iblk0 V c 0 t : Vec Ideal S5000x512 .f32) (iblk0 V c 1 t : Vec Ideal S512x16 .f32) (ix2 p q)
    = Cert.MatProd.prod (V c main_arg0 : S100000x512.Idx → EReal) (V c main_arg3 : S512x16.Idx → EReal) (((cfg0.win 2).blk t).view.emb (ix2 p q))
  have hi : ((cfg0.win 2).blk t).view.emb (ix2 p q) = (ix2 (⟨5000 * t.val + p.val, by have := p.isLt; omega⟩ : Fin 100000) q : S100000x16.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 16 + 1 * q.val = q.val; rw [e5]; omega
  rw [hi]
  refine Cert.MatProd.prod_block_eq _ _ _ _ p q _ (fun k => ?_) (fun k => ?_)
  · exact left_block V c t p k _ rfl
  · exact right_block V c t k q

/-- An index of the output array is in point `t`'s block iff its row is among rows 5000 t … 5000 t + 4999. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v11).slice (win0_2.rect t)).set ↔ _
  rw [View.set_slice_whole, Rect.mem_set_unit]
  exact Iff.rfl

/-- Every row lies in the block of the point numbered by its row divided by 5000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  let t : Fin cfg0.N := ⟨(i 0).val / 5000, by rw [hN]; omega⟩
  obtain ⟨-, -, -, -, e4, e5⟩ := index_facts t
  have e4' : win0_2.index t (0 : Fin 2) = (i 0).val / 5000 := e4
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 16 ≤ (i 1).val ∧ (i 1).val < win0_2.index t (1 : Fin 2) * 16 + 16; rw [e5]; omega

/-- THE OUTPUT ARRAY after the region: the plain product of the two arrays as the region finds them. -/
theorem final (c : Dev nD) :
    (dat0 V c).arrAt 2 cfg0.N = Cert.MatProd.prod (V c main_arg0 : S100000x512.Idx → EReal) (V c main_arg3 : S512x16.Idx → EReal) :=
  (dat0 V c).arrAt_eq_of_cover 2 _ (fun t _ => flushed_eq V c t) cover

end Cert.KernelIdeal.Product1

end
-- ==== Proof.Product2.lean ====
/-
  The second pipelined region: the product h · W2 of the clamped first layer with the second weight matrix, computed
  twenty row blocks of 5000 rows at a time. At each grid point the body loads rows 5000 t … 5000 t + 4999 of h (recast
  to the shape it already has) and the whole of W2, rounds both to a narrower float format (the identity on the
  extended reals), multiplies them into a zero accumulator and stores the 5000 × 40 block. A block of rows of a product is the product of that block of rows with the whole right factor,
  and the twenty blocks tile the 100000 rows, so the output array ends holding the plain product of the two arrays
  as the region finds them.
-/
import proofs.«128676_j69733089018296_1_alg».proof.Proof.Gen.KernelIdeal.Frame
import proofs.«128676_j69733089018296_1_alg».proof.Proof.LibMatProd
import Idealize.ShloMosaic.Lib.Pipeline.Value

set_option maxRecDepth 16384

noncomputable section

namespace Cert.KernelIdeal.Product2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- A whole-block access starts at the zero offsets. -/
theorem zero_offsets : (![0, 0] : Fin 2 → Nat) = fun _ => 0 := funext fun a => by fin_cases a <;> rfl

/-- On the extended reals the body's stored value is the plain product of the two loaded blocks: the cast
    to the same shape and the two roundings are the identity and the accumulator starts at zero. -/
theorem payload_eq (x : Vec Ideal S5000x16 .f32) (w : Vec Ideal S16x40 .f32) :
    k1_pay1 x w = Cert.MatProd.prod x w := by
  unfold k1_pay1
  rw [shapeCast_self]
  exact Cert.MatProd.matmul_plain_zero_eq (φ₁ := .bf16) (φ₂ := .bf16) none x w

/-- Where the windows' blocks sit at grid point `t`: the left operand's and the output's blocks at block row `t`,
    block column 0; the right operand's one block at (0, 0). Decided over the twenty points. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block at point `t` is entry (5000 t + p, k) of the array. -/
theorem left_block (c : Dev nD) (t : Fin cfg1.N) (p : Fin 5000) (k : Fin 16) (r : Fin 100000)
    (hr : r.val = 5000 * t.val + p.val) :
    (iblk1 V c 0 t : Vec Ideal S5000x16 .f32) (ix2 p k) = (V c main_v85 : S100000x16.Idx → EReal) (ix2 r k) := by
  obtain ⟨e0, e1, -, -, -, -⟩ := index_facts t
  unfold iblk1
  rw [View.read_apply]
  show V c main_v85 _ = V c main_v85 _
  refine congrArg (V c main_v85) ?_
  funext a
  apply Fin.ext
  match a with
  | ⟨0, _⟩ => show win1_0.index t (0 : Fin 2) * 5000 + 1 * p.val = r.val; rw [e0, hr]; omega
  | ⟨1, _⟩ => show win1_0.index t (1 : Fin 2) * 16 + 1 * k.val = k.val; rw [e1]; omega

/-- The right operand's one block is the whole array. -/
theorem right_block (c : Dev nD) (t : Fin cfg1.N) (k : Fin 16) (q : Fin 40) :
    (iblk1 V c 1 t : Vec Ideal S16x40 .f32) (ix2 k q) = (V c main_arg5 : S16x40.Idx → EReal) (ix2 k q) := by
  obtain ⟨-, -, e2, e3, -, -⟩ := index_facts t
  unfold iblk1
  rw [View.read_apply]
  show V c main_arg5 _ = V c main_arg5 _
  refine congrArg (V c main_arg5) ?_
  funext a
  apply Fin.ext
  match a with
  | ⟨0, _⟩ => show win1_1.index t (0 : Fin 2) * 16 + 1 * k.val = k.val; rw [e2]; omega
  | ⟨1, _⟩ => show win1_1.index t (1 : Fin 2) * 40 + 1 * q.val = q.val; rw [e3]; omega

/-- What grid point `t` writes back is block `t` of the product of the two arrays. -/
theorem flushed_eq (c : Dev nD) (t : Fin cfg1.N) :
    (dat1 V c).flushed 2 t
      = ((cfg1.win 2).blk t).view.read (Elt Ideal) (Cert.MatProd.prod (V c main_v85 : S100000x16.Idx → EReal) (V c main_arg5 : S16x40.Idx → EReal)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S16x40) zero_offsets]
  rw [payload_eq]
  obtain ⟨-, -, -, -, e4, e5⟩ := index_facts t
  funext j
  obtain ⟨p, q, rfl⟩ : ∃ (p : Fin 5000) (q : Fin 40), j = ix2 p q := ⟨j 0, j 1, eq_ix2 j⟩
  have ht : t.val < 20 := by have h1 := t.isLt; have hN : cfg1.N = 20 := N_1; omega
  show Cert.MatProd.prod (iblk1 V c 0 t : Vec Ideal S5000x16 .f32) (iblk1 V c 1 t : Vec Ideal S16x40 .f32) (ix2 p q)
    = Cert.MatProd.prod (V c main_v85 : S100000x16.Idx → EReal) (V c main_arg5 : S16x40.Idx → EReal) (((cfg1.win 2).blk t).view.emb (ix2 p q))
  have hi : ((cfg1.win 2).blk t).view.emb (ix2 p q) = (ix2 (⟨5000 * t.val + p.val, by have := p.isLt; omega⟩ : Fin 100000) q : S100000x40.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 40 + 1 * q.val = q.val; rw [e5]; omega
  rw [hi]
  refine Cert.MatProd.prod_block_eq _ _ _ _ p q _ (fun k => ?_) (fun k => ?_)
  · exact left_block V c t p k _ rfl
  · exact right_block V c t k q

/-- An index of the output array is in point `t`'s block iff its row is among rows 5000 t … 5000 t + 4999. -/
theorem mem_block (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v86).slice (win1_2.rect t)).set ↔ _
  rw [View.set_slice_whole, Rect.mem_set_unit]
  exact Iff.rfl

/-- Every row lies in the block of the point numbered by its row divided by 5000. -/
theorem cover (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  let t : Fin cfg1.N := ⟨(i 0).val / 5000, by rw [hN]; omega⟩
  obtain ⟨-, -, -, -, e4, e5⟩ := index_facts t
  have e4' : win1_2.index t (0 : Fin 2) = (i 0).val / 5000 := e4
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; rw [e4']; omega
  | ⟨1, _⟩ => show win1_2.index t (1 : Fin 2) * 40 ≤ (i 1).val ∧ (i 1).val < win1_2.index t (1 : Fin 2) * 40 + 40; rw [e5]; omega

/-- THE OUTPUT ARRAY after the region: the plain product of the two arrays as the region finds them. -/
theorem final (c : Dev nD) :
    (dat1 V c).arrAt 2 cfg1.N = Cert.MatProd.prod (V c main_v85 : S100000x16.Idx → EReal) (V c main_arg5 : S16x40.Idx → EReal) :=
  (dat1 V c).arrAt_eq_of_cover 2 _ (fun t _ => flushed_eq V c t) cover

end Cert.KernelIdeal.Product2

end
-- ==== Proof.Value.lean ====
/-
  The two runs side by side, boundary by boundary: the idealized kernel program's result buffer and the reference's
  hold the same array.

  The kernel program's contents at its fifteen segment boundaries are folds from the launch memory (host stretches
  folded over, regions leaving their arrays at what their write-backs leave); the reference's are the folds of the
  sixteen pieces of its operation list. From launch memories that agree on the arguments:
    * after the first stretch the long-lived buffers agree;
    * the first product's array after the region is the plain product of x and W1 as the region finds them, and the
      reference's host product is the same sum over the contracted axis, so the two product buffers agree;
    * layer one's stretches carry agreement from the buffers they read to the buffers they write, up to the clamped
      first layer;
    * the reference makes its edge lists again, equal to the kernel program's;
    * the second product likewise (h and W2), then layer two's stretches, down to the log-softmax: the results agree.
-/
import proofs.«128676_j69733089018296_1_alg».proof.Proof.Stage0
import proofs.«128676_j69733089018296_1_alg».proof.Proof.Stage1
import proofs.«128676_j69733089018296_1_alg».proof.Proof.Stage2
import proofs.«128676_j69733089018296_1_alg».proof.Proof.Keep1a
import proofs.«128676_j69733089018296_1_alg».proof.Proof.Keep1b
import proofs.«128676_j69733089018296_1_alg».proof.Proof.Keep2a
import proofs.«128676_j69733089018296_1_alg».proof.Proof.Keep2b
import proofs.«128676_j69733089018296_1_alg».proof.Proof.Relist
import proofs.«128676_j69733089018296_1_alg».proof.Proof.Product1
import proofs.«128676_j69733089018296_1_alg».proof.Proof.Product2
import proofs.«128676_j69733089018296_1_alg».proof.Proof.KernelRun

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)

/-- The first region writes none of the long-lived buffers. -/
theorem rel1_region1 {X : Valuation Cert.ReferenceIdeal.τ Cert.ReferenceIdeal.sig (Elt Ideal)} (c : Dev Cert.KernelIdeal.nD) (h : Rel1 (Cert.KernelIdeal.Gen.W1 m ρ c) X) : Rel1 (Cert.KernelIdeal.Gen.W2 m ρ c) X :=
  ⟨(Cert.KernelIdeal.Gen.W2_of_ne m ρ c Cert.KernelIdeal.main_v5 (by decide)).trans h.v5,
   (Cert.KernelIdeal.Gen.W2_of_ne m ρ c Cert.KernelIdeal.main_v7 (by decide)).trans h.v7,
   (Cert.KernelIdeal.Gen.W2_of_ne m ρ c Cert.KernelIdeal.main_v9 (by decide)).trans h.v9,
   (Cert.KernelIdeal.Gen.W2_of_ne m ρ c Cert.KernelIdeal.main_v10 (by decide)).trans h.v10,
   (Cert.KernelIdeal.Gen.W2_of_ne m ρ c Cert.KernelIdeal.main_v9 (by decide)).trans h.s9,
   (Cert.KernelIdeal.Gen.W2_of_ne m ρ c Cert.KernelIdeal.main_v10 (by decide)).trans h.s10,
   (Cert.KernelIdeal.Gen.W2_of_ne m ρ c Cert.KernelIdeal.main_arg4 (by decide)).trans h.a4,
   (Cert.KernelIdeal.Gen.W2_of_ne m ρ c Cert.KernelIdeal.main_arg5 (by decide)).trans h.a5,
   (Cert.KernelIdeal.Gen.W2_of_ne m ρ c Cert.KernelIdeal.main_arg6 (by decide)).trans h.a6⟩

/-- The second region writes none of the long-lived buffers. -/
theorem rel2_region2 {X : Valuation Cert.ReferenceIdeal.τ Cert.ReferenceIdeal.sig (Elt Ideal)} (c : Dev Cert.KernelIdeal.nD) (h : Rel2 (Cert.KernelIdeal.Gen.W8 m ρ c) X) : Rel2 (Cert.KernelIdeal.Gen.W9 m ρ c) X :=
  ⟨(Cert.KernelIdeal.Gen.W9_of_ne m ρ c Cert.KernelIdeal.main_v5 (by decide)).trans h.v5,
   (Cert.KernelIdeal.Gen.W9_of_ne m ρ c Cert.KernelIdeal.main_v7 (by decide)).trans h.v7,
   (Cert.KernelIdeal.Gen.W9_of_ne m ρ c Cert.KernelIdeal.main_v9 (by decide)).trans h.v9,
   (Cert.KernelIdeal.Gen.W9_of_ne m ρ c Cert.KernelIdeal.main_v10 (by decide)).trans h.v10,
   (Cert.KernelIdeal.Gen.W9_of_ne m ρ c Cert.KernelIdeal.main_arg6 (by decide)).trans h.a6⟩

/-- The first product: the region's output array and the reference's host product agree, the operands agreeing. -/
theorem product1_eq {X : Valuation Cert.ReferenceIdeal.τ Cert.ReferenceIdeal.sig (Elt Ideal)} (c : Dev Cert.KernelIdeal.nD)
    (o0 : Cert.KernelIdeal.Gen.W1 m ρ c (Proc.devRef .tc Cert.KernelIdeal.main_arg0) = X (Proc.devRef .tc Cert.ReferenceIdeal.main_arg0)) (o3 : Cert.KernelIdeal.Gen.W1 m ρ c (Proc.devRef .tc Cert.KernelIdeal.main_arg3) = X (Proc.devRef .tc Cert.ReferenceIdeal.main_arg3)) :
    Cert.KernelIdeal.Gen.W2 m ρ c (Proc.devRef .tc Cert.KernelIdeal.main_v11) = StableHlo.after Cert.ReferenceIdeal.Chunks.d0 X (Proc.devRef .tc Cert.ReferenceIdeal.main_v11) := by
  refine ((Cert.KernelIdeal.Gen.W2_arr m ρ c 2).trans (Cert.KernelIdeal.Product1.final (Cert.KernelIdeal.Gen.V1 m ρ) c)).trans ?_
  refine Eq.trans ?_ (ref_product1 X).symm
  refine Eq.trans ?_ (Cert.MatProd.dotGeneral_plain_eq none .single _ _).symm
  exact congrArg₂ Cert.MatProd.prod o0 o3

/-- The second product: the region's output array and the reference's host product agree, the operands agreeing. -/
theorem product2_eq {X : Valuation Cert.ReferenceIdeal.τ Cert.ReferenceIdeal.sig (Elt Ideal)} (c : Dev Cert.KernelIdeal.nD)
    (o0 : Cert.KernelIdeal.Gen.W8 m ρ c (Proc.devRef .tc Cert.KernelIdeal.main_v85) = X (Proc.devRef .tc Cert.ReferenceIdeal.main_v85)) (o5 : Cert.KernelIdeal.Gen.W8 m ρ c (Proc.devRef .tc Cert.KernelIdeal.main_arg5) = X (Proc.devRef .tc Cert.ReferenceIdeal.main_arg5)) :
    Cert.KernelIdeal.Gen.W9 m ρ c (Proc.devRef .tc Cert.KernelIdeal.main_v86) = StableHlo.after Cert.ReferenceIdeal.Chunks.d1 X (Proc.devRef .tc Cert.ReferenceIdeal.main_v89) := by
  refine ((Cert.KernelIdeal.Gen.W9_arr m ρ c 2).trans (Cert.KernelIdeal.Product2.final (Cert.KernelIdeal.Gen.V8 m ρ) c)).trans ?_
  refine Eq.trans ?_ (ref_product2 X).symm
  refine Eq.trans ?_ (Cert.MatProd.dotGeneral_plain_eq none .single _ _).symm
  exact congrArg₂ Cert.MatProd.prod o0 o5

/-- THE RESULTS AGREE: from launch memories agreeing on the seven arguments, the kernel program's result buffer at
    its return holds what the reference's operations leave in the reference's result buffer. -/
theorem result_eq (m' : (ℓ : Loc Cert.ReferenceIdeal.nD Cert.ReferenceIdeal.τ Cert.ReferenceIdeal.sig) → Buf (Elt Ideal) ℓ) (c : Dev Cert.KernelIdeal.nD)
    (hag : Init (Cert.KernelIdeal.Gen.W0 m ρ c) (launchContents m' c)) :
    Cert.KernelIdeal.Run.resultAt m ρ c
      = StableHlo.after Cert.ReferenceIdeal.ValueP.ops (launchContents m' c) (Proc.devRef .tc Cert.ReferenceIdeal.main_v163) := by
  rw [Cert.ReferenceIdeal.Chunks.after_ops]
  -- the first stretch
  have r1 := rel_of_init hag
  obtain ⟨o0, o3⟩ := operands_of_init hag
  -- the first product
  have h11 := product1_eq m ρ c o0 o3
  have r2 := keep1_prod (rel1_region1 m ρ c r1)
  -- layer one
  obtain ⟨h17, h18, hc2⟩ := degree1 r2
  have k11 := keep_v11 h11
  have r3 := keep1_degree r2
  have h19 := guard1 h17 h18 hc2
  have h11' := k11.2 _ _ k11.1
  have r4 := keep1_guard r3
  obtain ⟨h50, h56, h57, hc12⟩ := aggregate1 r4 h19 h11'
  have r5 := keep1_aggregate r4
  have h58 := guard1r h56 h57 hc12
  have h50' := keep_v50 h50
  have r6 := keep1_guardr r5
  have h84 := repulse1 r6 h58 h50'
  have r7 := keep1_repulse r6
  have h85 := clamp1 h84
  have r8 := keep1_clamp r7
  -- the reference's second copies of the edge lists
  obtain ⟨h85', h5'⟩ := keep_relist h85 r8.a5
  have q1 := rel2_of_rel1 r8
  -- the second product
  have h86 := product2_eq m ρ c h85' h5'
  have q2 := keep2_prod (rel2_region2 m ρ c q1)
  -- layer two
  obtain ⟨h92, h93, hc22⟩ := degree2 q2
  have k86 := keep_v86 h86
  have q3 := keep2_degree q2
  have h94 := guard2 h92 h93 hc22
  have h86' := k86.2 _ _ k86.1
  have q4 := keep2_guard q3
  obtain ⟨h125, h131, h132, hc33⟩ := aggregate2 q4 h94 h86'
  have q5 := keep2_aggregate q4
  have h133 := guard2r h131 h132 hc33
  have h125' := keep_v125 h125
  have q6 := keep2_guardr q5
  have h159 := repulse2 q6 h133 h125'
  exact logSoftmax h159

end Cert.Bridge

end
-- ==== Proof.lean ====
/-
  The certificate of a two-layer graph convolution with a repulsive-edge correction and a row-wise log-softmax, whose
  two feature products x · W1 and h · W2 the kernel program computes in pipelined regions (twenty blocks of 5000 rows,
  operands rounded to a narrower float format, a zero accumulator) and the reference by one host contraction each.

  On the extended reals the rounding is the identity and a block of rows of a product is the product of that block of
  rows, so each region's output array is the plain product of its two operand arrays, which is the host contraction.
  Everything else is the same host arithmetic in both programs (the reference makes its edge lists with self-loops
  twice, the kernel program once), so from memories agreeing on the arguments the two result buffers end equal. No
  finiteness of the inputs is used: no law beyond reading the two products as the same sum over the contracted axis
  is needed.
    * the three frames: the generated frame certificates of the two kernel programs; the reference's run with the
      arguments read back (no operation writes one);
    * `preserves`: the idealization rewrote nothing;
    * `algebraic`: the kernel program's run with its result named, the reference's run, and the agreement of the
      two results boundary by boundary.
-/
import proofs.«128676_j69733089018296_1_alg».proof.Defs
import proofs.«128676_j69733089018296_1_alg».proof.Proof.Gen.Kernel.Frame
import proofs.«128676_j69733089018296_1_alg».proof.Proof.Gen.Pre_finite_inputs
import proofs.«128676_j69733089018296_1_alg».proof.Proof.KernelRun
import proofs.«128676_j69733089018296_1_alg».proof.Proof.RefArgs
import proofs.«128676_j69733089018296_1_alg».proof.Proof.Value
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and each argument's buffer ends at the fold of the operations over its launch contents, which
    is its launch contents. -/
theorem frame_ri : Cert.frame_ReferenceIdeal := fun m ρ _ =>
  (θ_run Cert.ReferenceIdeal.defs _ _).mono (fun r h c =>
    ⟨(h c Cert.ReferenceIdeal.main_arg0).trans (Cert.ReferenceIdeal.Args.kept_arg0 _),
     (h c Cert.ReferenceIdeal.main_arg1).trans (Cert.ReferenceIdeal.Args.kept_arg1 _),
     (h c Cert.ReferenceIdeal.main_arg2).trans (Cert.ReferenceIdeal.Args.kept_arg2 _),
     (h c Cert.ReferenceIdeal.main_arg3).trans (Cert.ReferenceIdeal.Args.kept_arg3 _),
     (h c Cert.ReferenceIdeal.main_arg4).trans (Cert.ReferenceIdeal.Args.kept_arg4 _),
     (h c Cert.ReferenceIdeal.main_arg5).trans (Cert.ReferenceIdeal.Args.kept_arg5 _),
     (h c Cert.ReferenceIdeal.main_arg6).trans (Cert.ReferenceIdeal.Args.kept_arg6 _)⟩)
    (Cert.ReferenceIdeal.Chunks.run (F := Ideal) m ρ)

theorem preserves : Cert.preserves_Kernel_KernelIdeal := trivial

/-- Both idealized programs run; the kernel program's result buffer ends at the fold of its segments, the
    reference's at the fold of its operations, and the two folds agree at the result. -/
theorem algebraic : Cert.algebraic_KernelIdeal_ReferenceIdeal := by
  intro m ρ m' ρ' _ hagree
  refine ⟨fun c => Cert.KernelIdeal.Run.resultAt m ρ c, Cert.KernelIdeal.Run.run (F := Ideal) m ρ, ?_⟩
  refine (θ_run Cert.ReferenceIdeal.defs _ _).mono (fun r h c => ?_) (Cert.ReferenceIdeal.Chunks.run (F := Ideal) m' ρ')
  obtain ⟨g0, g1, g2, g3, g4, g5, g6⟩ := hagree c
  refine ⟨?_, (h c Cert.ReferenceIdeal.main_arg0).trans (Cert.ReferenceIdeal.Args.kept_arg0 _),
     (h c Cert.ReferenceIdeal.main_arg1).trans (Cert.ReferenceIdeal.Args.kept_arg1 _),
     (h c Cert.ReferenceIdeal.main_arg2).trans (Cert.ReferenceIdeal.Args.kept_arg2 _),
     (h c Cert.ReferenceIdeal.main_arg3).trans (Cert.ReferenceIdeal.Args.kept_arg3 _),
     (h c Cert.ReferenceIdeal.main_arg4).trans (Cert.ReferenceIdeal.Args.kept_arg4 _),
     (h c Cert.ReferenceIdeal.main_arg5).trans (Cert.ReferenceIdeal.Args.kept_arg5 _),
     (h c Cert.ReferenceIdeal.main_arg6).trans (Cert.ReferenceIdeal.Args.kept_arg6 _)⟩
  refine (h c Cert.ReferenceIdeal.main_v163).trans (Cert.Bridge.result_eq m ρ m' c ⟨?_, ?_, ?_, ?_, ?_, ?_, ?_⟩).symm
  · exact g0.symm
  · exact g1.symm
  · exact g2.symm
  · exact g3.symm
  · exact g4.symm
  · exact g5.symm
  · exact g6.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
